-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.sign_bit.Statement Cert.KernelIdeal.S256x768 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x197x768 : Shape := ⟨3, ![128, 197, 768]⟩
abbrev S3072x768 : Shape := ⟨2, ![3072, 768]⟩
abbrev S3072 : Shape := ⟨1, ![3072]⟩
abbrev S768 : Shape := ⟨1, ![768]⟩
abbrev S_ : Shape := ⟨0, ![]⟩

class Facts : Prop where
  bcast_S_S128x197x768 : S_.BroadcastsInDim S128x197x768 (![] : Fin 0 → Fin S128x197x768.rank)
  reducesTo_S128x197x768_S_d0_1_2 : S128x197x768.ReducesTo [0, 1, 2] S_
  h_S_ : 0 < S_.numel
  bcast_S_S3072x768 : S_.BroadcastsInDim S3072x768 (![] : Fin 0 → Fin S3072x768.rank)
  reducesTo_S3072x768_S_d0_1 : S3072x768.ReducesTo [0, 1] S_
  bcast_S_S3072 : S_.BroadcastsInDim S3072 (![] : Fin 0 → Fin S3072.rank)
  reducesTo_S3072_S_d0 : S3072.ReducesTo [0] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S3072 .f32) (main_arg8 : FVec F S3072 .f32) (main_v33 : IVec S_ 1) : IVec S_ 1 :=
  let main_v34 : FVec F S3072 .f32 := Host.absf main_arg7
  let main_cst_12 : FVec F S_ .f32 := constant S_ .f32 0x7F800000#32
  let main_v35 : FVec F S3072 .f32 := broadcastInDim S3072 ![] bcast_S_S3072 main_cst_12
  let main_v36 : IVec S3072 1 := cmpf .olt main_v34 main_v35
  let main_c_13 : IVec S_ 1 := constantI S_ 1 1#1
  let main_v37 : IVec S_ 1 := (fun x v => Host.reduce IntOp.andi x v reducesTo_S3072_S_d0 h_S_) main_v36 main_c_13
  let main_v38 : IVec S_ 1 := andi main_v33 main_v37
  let main_v39 : FVec F S3072 .f32 := Host.absf main_arg8
  let main_cst_14 : FVec F S_ .f32 := constant S_ .f32 0x7F800000#32
  let main_v40 : FVec F S3072 .f32 := broadcastInDim S3072 ![] bcast_S_S3072 main_cst_14
  let main_v41 : IVec S3072 1 := cmpf .olt main_v39 main_v40
  let main_c_15 : IVec S_ 1 := constantI S_ 1 1#1
  let main_v42 : IVec S_ 1 := (fun x v => Host.reduce IntOp.andi x v reducesTo_S3072_S_d0 h_S_) main_v41 main_c_15
  let main_v43 : IVec S_ 1 := andi main_v38 main_v42
  main_v43

def fn_part1 {F : FTy → Type} [FloatOps F] (main_arg4 : FVec F S3072 .f32) (main_arg5 : FVec F S3072 .f32) (main_arg6 : FVec F S3072 .f32) (main_arg7 : FVec F S3072 .f32) (main_arg8 : FVec F S3072 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S3072 .f32 := Host.absf main_arg6
  let main_cst_10 : FVec F S_ .f32 := constant S_ .f32 0x7F800000#32
  let main_v30 : FVec F S3072 .f32 := broadcastInDim S3072 ![] bcast_S_S3072 main_cst_10
  let main_v31 : IVec S3072 1 := cmpf .olt main_v29 main_v30
  let main_c_11 : IVec S_ 1 := constantI S_ 1 1#1
  let main_v32 : IVec S_ 1 := (fun x v => Host.reduce IntOp.andi x v reducesTo_S3072_S_d0 h_S_) main_v31 main_c_11
  let main_v33 : IVec S_ 1 := andi main_v28 main_v32
  fn_part2 (F := F) main_arg7 main_arg8 main_v33

def fn {F : FTy → Type} [FloatOps F] (main_arg0 : FVec F S128x197x768 .f32) (main_arg1 : FVec F S3072x768 .f32) (main_arg2 : FVec F S3072 .f32) (main_arg3 : FVec F S768 .f32) (main_arg4 : FVec F S3072 .f32) (main_arg5 : FVec F S3072 .f32) (main_arg6 : FVec F S3072 .f32) (main_arg7 : FVec F S3072 .f32) (main_arg8 : FVec F S3072 .f32) : IVec S_ 1 :=
  let main_v0 : FVec F S128x197x768 .f32 := Host.absf main_arg0
  let main_cst : FVec F S_ .f32 := constant S_ .f32 0x7F800000#32
  let main_v1 : FVec F S128x197x768 .f32 := broadcastInDim S128x197x768 ![] bcast_S_S128x197x768 main_cst
  let main_v2 : IVec S128x197x768 1 := cmpf .olt main_v0 main_v1
  let main_c : IVec S_ 1 := constantI S_ 1 1#1
  let main_v3 : IVec S_ 1 := (fun x v => Host.reduce IntOp.andi x v reducesTo_S128x197x768_S_d0_1_2 h_S_) main_v2 main_c
  let main_v4 : FVec F S3072x768 .f32 := Host.absf main_arg1
  let main_cst_0 : FVec F S_ .f32 := constant S_ .f32 0x7F800000#32
  let main_v5 : FVec F S3072x768 .f32 := broadcastInDim S3072x768 ![] bcast_S_S3072x768 main_cst_0
  let main_v6 : IVec S3072x768 1 := cmpf .olt main_v4 main_v5
  let main_c_1 : IVec S_ 1 := constantI S_ 1 1#1
  let main_v7 : IVec S_ 1 := (fun x v => Host.reduce IntOp.andi x v reducesTo_S3072x768_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_arg8 main_v13 main_v16
-- ==== Kernel.lean ====
abbrev S128x197x768 : Shape := ⟨3, ![128, 197, 768]⟩
abbrev S3072x768 : Shape := ⟨2, ![3072, 768]⟩
abbrev S3072 : Shape := ⟨1, ![3072]⟩
abbrev S768 : Shape := ⟨1, ![768]⟩
abbrev S_ : Shape := ⟨0, ![]⟩
abbrev S768x3072 : Shape := ⟨2, ![768, 3072]⟩
abbrev S25216x768 : Shape := ⟨2, ![25216, 768]⟩
abbrev S1x768 : Shape := ⟨2, ![1, 768]⟩
abbrev S1x3072 : Shape := ⟨2, ![1, 3072]⟩
abbrev S8x3072 : Shape := ⟨2, ![8, 3072]⟩
abbrev S25216x3072 : Shape := ⟨2, ![25216, 3072]⟩
abbrev S256x768 : Shape := ⟨2, ![256, 768]⟩
abbrev S256x3072 : Shape := ⟨2, ![256, 3072]⟩
abbrev S256 : Shape := ⟨1, ![256]⟩
abbrev S256x1 : Shape := ⟨2, ![256, 1]⟩
abbrev S128x197x3072 : Shape := ⟨3, ![128, 197, 3072]⟩

abbrev nBuf : Space → Nat
  | .hbm => 33
  | .vmem => 7
  | .smem => 0
  | _ => 0

abbrev bufTy : (tb : Table) → Fin (tcTables nBuf tb) → BufTy
  | .hbm, ⟨0, _⟩ => ⟨S128x197x768, .f32⟩
  | .hbm, ⟨1, _⟩ => ⟨S3072x768, .f32⟩
  | .hbm, ⟨2, _⟩ => ⟨S3072, .f32⟩
  | .hbm, ⟨3, _⟩ => ⟨S768, .f32⟩
  | .hbm, ⟨4, _⟩ => ⟨S3072, .f32⟩
  | .hbm, ⟨5, _⟩ => ⟨S3072, .f32⟩
  | .hbm, ⟨6, _⟩ => ⟨S3072, .f32⟩
  | .hbm, ⟨7, _⟩ => ⟨S3072, .f32⟩
  | .hbm, ⟨8, _⟩ => ⟨S3072, .f32⟩
  | .hbm, ⟨9, _⟩ => ⟨S3072x768, .f32⟩
  | .hbm, ⟨10, _⟩ => ⟨S_, .f32⟩
  | .hbm, ⟨11, _⟩ => ⟨S3072, .f32⟩
  | .hbm, ⟨12, _⟩ => ⟨S_, .f32⟩
  | .hbm, ⟨13, _⟩ => ⟨S3072, .f32⟩
  | .hbm, ⟨14, _⟩ => ⟨S3072, .f32⟩
  | .hbm, ⟨15, _⟩ => ⟨S3072x768, .f32⟩
  | .hbm, ⟨16, _⟩ => ⟨S768x3072, .f32⟩
  | .hbm, ⟨17, _⟩ => ⟨S768x3072, .bf16⟩
  | .hbm, ⟨18, _⟩ => ⟨S25216x768, .f32⟩
  | .hbm, ⟨19, _⟩ => ⟨S1x768, .f32⟩
  | .hbm, ⟨20, _⟩ => ⟨S_, .f32⟩
  | .hbm, ⟨21, _⟩ => ⟨S3072, .f32⟩
  | .hbm, ⟨22, _⟩ => ⟨S1x3072, .f32⟩
  | .hbm, ⟨23, _⟩ => ⟨S1x3072, .f32⟩
  | .hbm, ⟨24, _⟩ => ⟨S1x3072, .f32⟩
  | .hbm, ⟨25, _⟩ => ⟨S1x3072, .f32⟩
  | .hbm, ⟨26, _⟩ => ⟨S1x3072, .f32⟩
  | .hbm, ⟨27, _⟩ => ⟨S1x3072, .f32⟩
  | .hbm, ⟨28, _⟩ => ⟨S1x3072, .f32⟩
  | .hbm, ⟨29, _⟩ => ⟨S1x3072, .f32⟩
  | .hbm, ⟨30, _⟩ => ⟨S8x3072, .f32⟩
  | .hbm, ⟨31, _⟩ => ⟨S25216x3072, .f32⟩
  | .hbm, ⟨32, _⟩ => ⟨S128x197x3072, .f32⟩
  | .local _ .vmem, ⟨0, _⟩ => ⟨S256x768, .f32⟩
  | .local _ .vmem, ⟨1, _⟩ => ⟨S256x768, .f32⟩
  | .local _ .vmem, ⟨2, _⟩ => ⟨S1x768, .f32⟩
  | .local _ .vmem, ⟨3, _⟩ => ⟨S768x3072, .bf16⟩
  | .local _ .vmem, ⟨4, _⟩ => ⟨S8x3072, .f32⟩
  | .local _ .vmem, ⟨5, _⟩ => ⟨S256x3072, .f32⟩
  | .local _ .vmem, ⟨6, _⟩ => ⟨S256x3072, .f32⟩
  | _, _ => ⟨S128x197x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [BitOps F]

abbrev grid0 : Pipeline.Grid := ⟨1, ![99], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S3072x768_S3072_d1 : S3072x768.ReducesTo [1] S3072
  h_S_ : 0 < S_.numel
  bcast_S_S3072 : S_.BroadcastsInDim S3072 (![] : Fin 0 → Fin S3072.rank)
  transposes_S3072x768_S768x3072_1_0 : S3072x768.Transposes [1, 0] S768x3072
  bitsLt_bf16_f32 : FTy.bits .bf16 < FTy.bits .f32
  shapeCasts_S128x197x768_S25216x768 : S128x197x768.ShapeCasts S25216x768
  shapeCasts_S768_S1x768 : S768.ShapeCasts S1x768
  bcast_S3072_S1x3072_1 : S3072.BroadcastsInDim S1x3072 (![1] : Fin 1 → Fin S1x3072.rank)
  concatenates_S1x3072_S1x3072_S1x3072_S1x3072_S1x3072_S1x3072_S1x3072_S1x3072_S8x3072_d0 : Shape.Concatenates [S1x3072, S1x3072, S1x3072, S1x3072, S1x3072, S1x3072, S1x3072, S1x3072] S8x3072 0
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  inb_S768x3072_S768x3072_0_0 : ∀ a, (![0, 0] : Fin 2 → Nat) a + S768x3072.size a ≤ S768x3072.size a
  h_S768x3072 : 0 < S768x3072.numel
  shapeCasts_S768x3072_S768x3072 : S768x3072.ShapeCasts S768x3072
  inb_S8x3072_S1x3072_6_0 : ∀ a, (![6, 0] : Fin 2 → Nat) a + S1x3072.size a ≤ S8x3072.size a
  h_S1x3072 : 0 < S1x3072.numel
  shapeCasts_S1x3072_S1x3072 : S1x3072.ShapeCasts S1x3072
  inb_S8x3072_S1x3072_0_0 : ∀ a, (![0, 0] : Fin 2 → Nat) a + S1x3072.size a ≤ S8x3072.size a
  broadcasts_S1x3072_S256x3072 : S1x3072.Broadcasts S256x3072
  reduces_S256x3072_S256 : S256x3072.Reduces [1] S256
  shapeCasts_S256_S256x1 : S256.ShapeCasts S256x1
  broadcasts_S256x1_S256x3072 : S256x1.Broadcasts S256x3072
  inb_S8x3072_S1x3072_1_0 : ∀ a, (![1, 0] : Fin 2 → Nat) a + S1x3072.size a ≤ S8x3072.size a
  inb_S8x3072_S1x3072_2_0 : ∀ a, (![2, 0] : Fin 2 → Nat) a + S1x3072.size a ≤ S8x3072.size a
  concatenates_S256x768_S256x768_S256x768_S256x768_S256x3072_d1 : Shape.Concatenates [S256x768, S256x768, S256x768, S256x768] S256x3072 1
  inb_S8x3072_S1x3072_3_0 : ∀ a, (![3, 0] : Fin 2 → Nat) a + S1x3072.size a ≤ S8x3072.size a
  inb_S8x3072_S1x3072_4_0 : ∀ a, (![4, 0] : Fin 2 → Nat) a + S1x3072.size a ≤ S8x3072.size a
  inb_S8x3072_S1x3072_5_0 : ∀ a, (![5, 0] : Fin 2 → Nat) a + S1x3072.size a ≤ S8x3072.size a
  inb_S256x3072_S256x3072_0_0 : ∀ a, (![0, 0] : Fin 2 → Nat) a + S256x3072.size a ≤ S256x3072.size a
  h_S256x3072 : 0 < S256x3072.numel
  shapeCasts_S25216x3072_S128x197x3072 : S25216x3072.ShapeCasts S128x197x3072
  dot_S256x768_S768x3072_S256x3072_1_0_0_1_n_n_wf : DotDims.WF S256x768 S768x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x768.size a < S25216x768.size a
  hwx0_0 : ∀ i : grid0.Coords, EltTy.bits .f32 = 32 ∨ (Rect.unit (s := S25216x768) (fun a => cc0_transform_0 i a * S256x768.size a) (fun a => (Pipeline.Clip.of (cc0_transform_0 i a) (S256x768.size a) (S25216x768.size a)).extent (S256x768.size a)) fun a => Pipeline.Clip.inb (Pipeline.Clip.ok_of (hstart0_0 i a))).WholeWords (EltTy.packing .f32)
  hwxs0_0 : ∀ i : grid0.Coords, EltTy.bits .f32 = 32 ∨ (Rect.unit (s := S256x768) (fun _ => 0) (fun a => (Pipeline.Clip.of (cc0_transform_0 i a) (S256x768.size a) (S25216x768.size a)).extent (S256x768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x768.size a ≤ S1x768.size a
  hwx0_1 : ∀ i : grid0.Coords, EltTy.bits .f32 = 32 ∨ (Rect.block (s := S1x768) S1x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x3072.size a ≤ S768x3072.size a
  hwx0_2 : ∀ i : grid0.Coords, EltTy.bits .bf16 = 32 ∨ (Rect.block (s := S768x3072) S768x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x3072.size a ≤ S8x3072.size a
  hwx0_3 : ∀ i : grid0.Coords, EltTy.bits .f32 = 32 ∨ (Rect.block (s := S8x3072) S8x3072.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S256x3072.size a < S25216x3072.size a
  hwx0_4 : ∀ i : grid0.Coords, EltTy.bits .f32 = 32 ∨ (Rect.unit (s := S25216x3072) (fun a => cc0_transform_4 i a * S256x3072.size a) (fun a => (Pipeline.Clip.of (cc0_transform_4 i a) (S256x3072.size a) (S25216x3072.size a)).extent (S256x3072.size a)) fun a => Pipeline.Clip.inb (Pipeline.Clip.ok_of (hstart0_4 i a))).WholeWords (EltTy.packing .f32)
  hwxs0_4 : ∀ i : grid0.Coords, EltTy.bits .f32 = 32 ∨ (Rect.unit (s := S256x3072) (fun _ => 0) (fun a => (Pipeline.Clip.of (cc0_transform_4 i a) (S256x3072.size a) (S25216x3072.size a)).extent (S256x3072.size a)) fun a => (Nat.zero_add _).trans_le (Pipeline.Clip.extent_le (Pipeline.Clip.ok_of (hstart0_4 i a)))).WholeWords (EltTy.packing .f32)

variable [Facts₀]

def dot_S256x768_S768x3072_S256x3072_1_0_0_1_n_n : DotDims S256x768 S768x3072 S256x3072 where
  lhsContracting := [1]
  rhsContracting := [0]
  lhsNonContracting := [0]
  rhsNonContracting := [1]
  lhsBatch := []
  rhsBatch := []
  wf := dot_S256x768_S768x3072_S256x3072_1_0_0_1_n_n_wf

abbrev win0_0 : Pipeline.Window sig grid0 :=
  Pipeline.Window.ofSpecClip (Memref.whole main_v7) S256x768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v8) S1x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S768x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S8x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v19) S256x3072.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x197x768 : Shape := ⟨3, ![128, 197, 768]⟩
abbrev S3072x768 : Shape := ⟨2, ![3072, 768]⟩
abbrev S3072 : Shape := ⟨1, ![3072]⟩
abbrev S768 : Shape := ⟨1, ![768]⟩
abbrev S_ : Shape := ⟨0, ![]⟩
abbrev S3072x1 : Shape := ⟨2, ![3072, 1]⟩
abbrev S1x1x768 : Shape := ⟨3, ![1, 1, 768]⟩
abbrev S128x197x3072 : Shape := ⟨3, ![128, 197, 3072]⟩
abbrev S1x1x3072 : Shape := ⟨3, ![1, 1, 3072]⟩
abbrev S128x197 : Shape := ⟨2, ![128, 197]⟩
abbrev S128x197x1 : Shape := ⟨3, ![128, 197, 1]⟩

abbrev nBuf : Space → Nat
  | .hbm => 91
  | .vmem => 0
  | .smem => 0
  | _ => 0

abbrev bufTy : (tb : Table) → Fin (tcTables nBuf tb) → BufTy
  | .hbm, ⟨0, _⟩ => ⟨S128x197x768, .f32⟩
  | .hbm, ⟨1, _⟩ => ⟨S3072x768, .f32⟩
  | .hbm, ⟨2, _⟩ => ⟨S3072, .f32⟩
  | .hbm, ⟨3, _⟩ => ⟨S768, .f32⟩
  | .hbm, ⟨4, _⟩ => ⟨S3072, .f32⟩
  | .hbm, ⟨5, _⟩ => ⟨S3072, .f32⟩
  | .hbm, ⟨6, _⟩ => ⟨S3072, .f32⟩
  | .hbm, ⟨7, _⟩ => ⟨S3072, .f32⟩
  | .hbm, ⟨8, _⟩ => ⟨S3072, .f32⟩
  | .hbm, ⟨9, _⟩ => ⟨S3072x768, .f32⟩
  | .hbm, ⟨10, _⟩ => ⟨S_, .f32⟩
  | .hbm, ⟨11, _⟩ => ⟨S3072, .f32⟩
  | .hbm, ⟨12, _⟩ => ⟨S3072x1, .f32⟩
  | .hbm, ⟨13, _⟩ => ⟨S_, .f32⟩
  | .hbm, ⟨14, _⟩ => ⟨S3072x1, .f32⟩
  | .hbm, ⟨15, _⟩ => ⟨S3072x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S3072x768, .f32⟩
  | .hbm, ⟨20, _⟩ => ⟨S3072x768, .f32⟩
  | .hbm, ⟨21, _⟩ => ⟨S_, .f32⟩
  | .hbm, ⟨22, _⟩ => ⟨S3072x768, .f32⟩
  | .hbm, ⟨23, _⟩ => ⟨S3072x768, .f32⟩
  | .hbm, ⟨24, _⟩ => ⟨S3072x768, .f32⟩
  | .hbm, ⟨25, _⟩ => ⟨S3072x768, .f32⟩
  | .hbm, ⟨26, _⟩ => ⟨S3072x768, .f32⟩
  | .hbm, ⟨27, _⟩ => ⟨S3072x768, .f32⟩
  | .hbm, ⟨28, _⟩ => ⟨S3072x768, .f32⟩
  | .hbm, ⟨29, _⟩ => ⟨S1x1x768, .f32⟩
  | .hbm, ⟨30, _⟩ => ⟨S128x197x768, .f32⟩
  | .hbm, ⟨31, _⟩ => ⟨S128x197x768, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S128x197x768, .f32⟩
  | .hbm, ⟨36, _⟩ => ⟨S128x197x768, .f32⟩
  | .hbm, ⟨37, _⟩ => ⟨S_, .f32⟩
  | .hbm, ⟨38, _⟩ => ⟨S128x197x768, .f32⟩
  | .hbm, ⟨39, _⟩ => ⟨S128x197x768, .f32⟩
  | .hbm, ⟨40, _⟩ => ⟨S128x197x768, .f32⟩
  | .hbm, ⟨41, _⟩ => ⟨S128x197x768, .f32⟩
  | .hbm, ⟨42, _⟩ => ⟨S128x197x768, .f32⟩
  | .hbm, ⟨43, _⟩ => ⟨S128x197x3072, .f32⟩
  | .hbm, ⟨44, _⟩ => ⟨S1x1x3072, .f32⟩
  | .hbm, ⟨45, _⟩ => ⟨S128x197x3072, .f32⟩
  | .hbm, ⟨46, _⟩ => ⟨S128x197x3072, .f32⟩
  | .hbm, ⟨47, _⟩ => ⟨S_, .f32⟩
  | .hbm, ⟨48, _⟩ => ⟨S128x197, .f32⟩
  | .hbm, ⟨49, _⟩ => ⟨S128x197x1, .f32⟩
  | .hbm, ⟨50, _⟩ => ⟨S_, .f32⟩
  | .hbm, ⟨51, _⟩ => ⟨S128x197x1, .f32⟩
  | .hbm, ⟨52, _⟩ => ⟨S128x197x1, .f32⟩
  | .hbm, ⟨53, _⟩ => ⟨S128x197x3072, .f32⟩
  | .hbm, ⟨54, _⟩ => ⟨S128x197x3072, .f32⟩
  | .hbm, ⟨55, _⟩ => ⟨S128x197x3072, .f32⟩
  | .hbm, ⟨56, _⟩ => ⟨S_, .f32⟩
  | .hbm, ⟨57, _⟩ => ⟨S128x197, .f32⟩
  | .hbm, ⟨58, _⟩ => ⟨S128x197x1, .f32⟩
  | .hbm, ⟨59, _⟩ => ⟨S_, .f32⟩
  | .hbm, ⟨60, _⟩ => ⟨S128x197x1, .f32⟩
  | .hbm, ⟨61, _⟩ => ⟨S128x197x1, .f32⟩
  | .hbm, ⟨62, _⟩ => ⟨S128x197x3072, .f32⟩
  | .hbm, ⟨63, _⟩ => ⟨S128x197x3072, .f32⟩
  | .hbm, ⟨64, _⟩ => ⟨S_, .f32⟩
  | .hbm, ⟨65, _⟩ => ⟨S128x197x1, .f32⟩
  | .hbm, ⟨66, _⟩ => ⟨S128x197x1, .f32⟩
  | .hbm, ⟨67, _⟩ => ⟨S128x197x1, .f32⟩
  | .hbm, ⟨68, _⟩ => ⟨S128x197x3072, .f32⟩
  | .hbm, ⟨69, _⟩ => ⟨S128x197x3072, .f32⟩
  | .hbm, ⟨70, _⟩ => ⟨S1x1x3072, .f32⟩
  | .hbm, ⟨71, _⟩ => ⟨S128x197x3072, .f32⟩
  | .hbm, ⟨72, _⟩ => ⟨S128x197x3072, .f32⟩
  | .hbm, ⟨73, _⟩ => ⟨S1x1x3072, .f32⟩
  | .hbm, ⟨74, _⟩ => ⟨S128x197x3072, .f32⟩
  | .hbm, ⟨75, _⟩ => ⟨S128x197x3072, .f32⟩
  | .hbm, ⟨76, _⟩ => ⟨S128x197x3072, .f32⟩
  | .hbm, ⟨77, _⟩ => ⟨S128x197x3072, .f32⟩
  | .hbm, ⟨78, _⟩ => ⟨S1x1x3072, .f32⟩
  | .hbm, ⟨79, _⟩ => ⟨S128x197x3072, .f32⟩
  | .hbm, ⟨80, _⟩ => ⟨S128x197x3072, .f32⟩
  | .hbm, ⟨81, _⟩ => ⟨S_, .f32⟩
  | .hbm, ⟨82, _⟩ => ⟨S128x197x3072, .f32⟩
  | .hbm, ⟨83, _⟩ => ⟨S128x197x3072, .i1⟩
  | .hbm, ⟨84, _⟩ => ⟨S1x1x3072, .f32⟩
  | .hbm, ⟨85, _⟩ => ⟨S128x197x3072, .f32⟩
  | .hbm, ⟨86, _⟩ => ⟨S128x197x3072, .f32⟩
  | .hbm, ⟨87, _⟩ => ⟨S128x197x3072, .f32⟩
  | .hbm, ⟨88, _⟩ => ⟨S1x1x3072, .f32⟩
  | .hbm, ⟨89, _⟩ => ⟨S128x197x3072, .f32⟩
  | .hbm, ⟨90, _⟩ => ⟨S128x197x3072, .f32⟩
  | _, _ => ⟨S128x197x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_5 : Ref sig .tc := ⟨.hbm, 47, rfl⟩
abbrev main_v22 : Ref sig .tc := ⟨.hbm, 48, rfl⟩
abbrev main_v23 : Ref sig .tc := ⟨.hbm, 49, rfl⟩
abbrev main_cst_6 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_v30 : Ref sig .tc := ⟨.hbm, 58, rfl⟩
abbrev main_cst_8 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_9 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]

class Facts₀ : Prop where
  reducesTo_S3072x768_S3072_d1 : S3072x768.ReducesTo [1] S3072
  h_S_ : 0 < S_.numel
  bcast_S3072_S3072x1_0 : S3072.BroadcastsInDim S3072x1 (![0] : Fin 1 → Fin S3072x1.rank)
  bcast_S_S3072x1 : S_.BroadcastsInDim S3072x1 (![] : Fin 0 → Fin S3072x1.rank)
  bcast_S_S3072x768 : S_.BroadcastsInDim S3072x768 (![] : Fin 0 → Fin S3072x768.rank)
  bcast_S3072x1_S3072x768_0_1 : S3072x1.BroadcastsInDim S3072x768 (![0, 1] : Fin 2 → Fin S3072x768.rank)
  bcast_S768_S1x1x768_2 : S768.BroadcastsInDim S1x1x768 (![2] : Fin 1 → Fin S1x1x768.rank)
  bcast_S1x1x768_S128x197x768_0_1_2 : S1x1x768.BroadcastsInDim S128x197x768 (![0, 1, 2] : Fin 3 → Fin S128x197x768.rank)
  bcast_S_S128x197x768 : S_.BroadcastsInDim S128x197x768 (![] : Fin 0 → Fin S128x197x768.rank)
  bcast_S3072_S1x1x3072_2 : S3072.BroadcastsInDim S1x1x3072 (![2] : Fin 1 → Fin S1x1x3072.rank)
  bcast_S1x1x3072_S128x197x3072_0_1_2 : S1x1x3072.BroadcastsInDim S128x197x3072 (![0, 1, 2] : Fin 3 → Fin S128x197x3072.rank)
  reducesTo_S128x197x3072_S128x197_d2 : S128x197x3072.ReducesTo [2] S128x197
  bcast_S128x197_S128x197x1_0_1 : S128x197.BroadcastsInDim S128x197x1 (![0, 1] : Fin 2 → Fin S128x197x1.rank)
  bcast_S_S128x197x1 : S_.BroadcastsInDim S128x197x1 (![] : Fin 0 → Fin S128x197x1.rank)
  bcast_S128x197x1_S128x197x3072_0_1_2 : S128x197x1.BroadcastsInDim S128x197x3072 (![0, 1, 2] : Fin 3 → Fin S128x197x3072.rank)
  concatenates_S128x197x768_S128x197x768_S128x197x768_S128x197x768_S128x197x3072_d2 : Shape.Concatenates [S128x197x768, S128x197x768, S128x197x768, S128x197x768] S128x197x3072 2
  bcast_S_S128x197x3072 : S_.BroadcastsInDim S128x197x3072 (![] : Fin 0 → Fin S128x197x3072.rank)
  dot_S128x197x768_S3072x768_S128x197x3072_2_1_01_0_n_n_wf : DotDims.WF S128x197x768 S3072x768 S128x197x3072 [2] [1] [0, 1] [0] [] []

variable [Facts₀]

def dot_S128x197x768_S3072x768_S128x197x3072_2_1_01_0_n_n : DotDims S128x197x768 S3072x768 S128x197x3072 where
  lhsContracting := [2]
  rhsContracting := [1]
  lhsNonContracting := [0, 1]
  rhsNonContracting := [0]
  lhsBatch := []
  rhsBatch := []
  wf := dot_S128x197x768_S3072x768_S128x197x3072_2_1_01_0_n_n_wf

class Facts : Prop extends Facts₀ where

variable [Facts]
-- ==== Proof.KernelAround.lean ====
/-
  `Kernel`'s entry point around its one grid of 99 row blocks: the lines before the grid (the weights' signs transposed,
  their rows' mean absolute values, the inputs flattened to 25216 rows, the seven per-feature vectors and a zero row
  stacked into one 8-row table) write buffers of their own and none of the nine arguments; the grid reads four of
  those buffers block by block and writes the 25216-row result; the one line after it reshapes that result. What each
  buffer holds when the grid is entered is the earlier lines' composed value (`V`); each argument holds there, and
  after the last line, what it held at launch.
-/
import proofs.«124440_j8117488190192_2_alg».proof.Proof.Gen.Kernel.Launch
import proofs.«124440_j8117488190192_2_alg».proof.Proof.Gen.Kernel.Skeleton
import proofs.«124440_j8117488190192_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

/-! ## The lines around the grid -/

/-- What every buffer of core `c` holds when the grid is entered: the launch contents run through the lines before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No line before the grid allocates a buffer. -/
theorem hostOps0_fresh : (hostOps0 : List (HloOp τ sig (Elt F))).Forall fun op => op.fresh = ∅ := by
  simp only [List.Forall]; repeat' constructor
/-- Nor does the reshape after it. -/
theorem hostOps1_fresh : (hostOps1 : List (HloOp τ sig (Elt F))).Forall fun op => op.fresh = ∅ := by
  simp only [List.Forall]; repeat' constructor

/-- The entry point is the earlier lines, the grid, the later line: it reduces to the grid continued by the later
    line, every buffer at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later line touches only buffers of the core that outlive the grid. -/
theorem later_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem later_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes none of the five arrays the grid reads or writes: only the reshaped result. -/
theorem later_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The one buffer the later line writes: the reshaped result. -/
def laterWrites : Finset (Ref sig .tc) := {main_v20}
theorem later_writes : ∀ ops ∈ ([hostOps1] : List (List (HloOp τ sig (Elt F)))), ∀ op ∈ ops,
    ∀ b : Ref sig .tc, Proc.devRef .tc b ∈ op.writes → b ∈ laterWrites := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, StableHlo.nary_writes, Finset.mem_singleton] at hb; cases Proc.devRef_injective _ hb; decide

/-! ## The arguments are written by no line -/

/-- No line before the grid writes the hidden states: the grid finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the hidden states ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the grid writes the weight matrix: the grid finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the weight matrix ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line before the grid writes the bias: the grid finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the bias ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No line before the grid writes the input shift: the grid finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the input shift ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No line before the grid writes the normalisation scale: the grid finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the normalisation scale ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No line before the grid writes the normalisation offset: the grid finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the normalisation offset ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No line before the grid writes the first shift: the grid finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the first shift ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No line before the grid writes the rectifier slope: the grid finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the rectifier slope ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No line before the grid writes the second shift: the grid finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the second shift ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The blocks the grid reads -/

/-- Array `w`'s block at grid point `t` (the part of it inside the array), read off the array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Around

end
-- ==== Proof.KernelFrame.lean ====
/-
  `Kernel` runs to the end, faults nowhere and leaves its nine arguments as launched.

  The grid has 99 points; point `t` reads rows 256·t … 256·t + 255 of the flattened inputs, all of the shift row, of
  the transposed sign matrix and of the 8-row parameter table, and writes the same rows of the result. The array has
  25216 = 98·256 + 128 rows, so the last block hangs over its end by 128 rows: its fetch fills the buffer's first 128
  rows from the array and leaves the rest at contents nothing names, and its write-back writes only the first 128
  rows. The body loads the four input buffers whole (seven rows of the table one by one), computes, and stores the
  result buffer whole; it changes no input buffer. For this claim nothing is said of what it stores: the result array
  and its reshaped copy are no arguments.
-/
import proofs.«124440_j8117488190192_2_alg».proof.Proof.KernelAround

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body -/

set_option maxHeartbeats 4000000 in
/-- The body on whole buffers, the four inputs' at contents `x0 … x3` and the result's at anything: it runs to the
    continuation holding the inputs' as they were and the result's at some contents. -/
theorem sound_kernel (c : Dev nD) (E : Set ℕ) (i : grid0.Coords)
    (arg1 : Memref sig .tc .vmem S256x768 .f32) (harg1 : arg1.IsWhole) (arg2 : Memref sig .tc .vmem S1x768 .f32) (harg2 : arg2.IsWhole)
    (arg3 : Memref sig .tc .vmem S768x3072 .bf16) (harg3 : arg3.IsWhole) (arg4 : Memref sig .tc .vmem S8x3072 .f32) (harg4 : arg4.IsWhole)
    (arg5 : Memref sig .tc .vmem S256x3072 .f32) (harg5 : arg5.IsWhole)
    (x0 : Vec F S256x768 .f32) (x1 : Vec F S1x768 .f32) (x2 : Vec F S768x3072 .bf16) (x3 : Vec F S8x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d)) -∗ K ⟨⟩))
      ⊢ wp frame (wpE (defs₀ (F := F)) Variants.none c none) E (cc0__dense_mlp_kernel i arg1 harg1 arg2 harg2 arg3 harg3 arg4 harg4 arg5 harg5) K := by
  simp only [cc0__dense_mlp_kernel_eq_skeleton]; unfold cc0__dense_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _, _; isplitr
  swap; · iexact H4
  ipureintro; rfl

/-! ## The proof data -/

/-- The window nothing is said of: the result's (window 4). -/
def forgets : Fin 5 → Bool := fun w => w.val == 4

/-- On core `c`: the five arrays as the grid finds them; after the body at point `t` the input rows' buffer at its
    block inside the array (zero past the array's end, where nothing is claimed), the three resident buffers at their
    one block, the result's buffer unnamed; the invariant only what the grid does not touch; nothing owed. -/
def dats (_ : Fin 1) (c : Dev nD) : Dat τ (Elt F) Unit ℕ (UR sig nD τ) ℕ cfg0 c where
  A w := V m c (Pipeline.arrRef spec0 w)
  after w t := match w with
    | ⟨0, _⟩ => (cfg0.win 0).fill (cfg0.grid.coords t) (fun _ => Scalar.ofBits .f32 0#32) (iblk m c 0 t)
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t
    = (cfg0.win 0).fill (cfg0.grid.coords t) (fun _ => Scalar.ofBits .f32 0#32) (iblk m c 0 t) := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]

/-- The input rows are fetched at every point: the buffer holds the block on the rows inside the array and `d` past
    its end. -/
theorem before0 (c : Dev nD) (t : Fin cfg0.N) (d) :
    (dats m 0 c).before 0 t d = (cfg0.win 0).fill (cfg0.grid.coords t) d (iblk m c 0 t) := by
  unfold Dat.before; rw [if_pos (fetch0_0 t)]; rfl

/-- A resident input is fetched at the first point only and the body leaves it in place: its buffer holds its one
    block at every point. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it returns: the input rows' buffer stated on the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩, H4⟩
  iapply (sound_kernel c Set.univ (grid0.coords t) _ _ _ _ _ _ _ _ _ _
    ((cfg0.win 0).fill (cfg0.grid.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]
  · iexists d0
    rw [(cfg0.win 0).cut_fill]
    iexact H0
  isplitl [H1]; · iexact H1
  isplitl [H2]; · iexact H2
  isplitl [H3]; · iexact H3
  iexact H4

/-- The body obligation at every point, the result's window forgotten. -/
theorem body_obligation (c : Dev nD) : BodyObligationLoose (dats (F := F) m 0 c) (defs₀ (F := F)) Variants.none () Set.univ forgets := fun t => by
  rw [bigSep_W0, bigSep_W0]
  exact sound_body m c t

/-! ## The run and the claim -/

set_option backward.isDefEq.respectTransparency.types false in
/-- From any memory with zero counters every weakly fair execution of the entry point ends, and every buffer that is
    neither one of the grid's five arrays nor the reshaped result holds what it held when the grid was entered. -/
theorem run_main : θ_run defs (onTc (τ := τ) (main (F := F))) (s₀ m ρ)
    (Pipeline.RDat.FramePostR (cfgs 0) (fun c => (dats m 0 c).toRForget forgets) laterWrites (V m)) :=
  Pipeline.RDat.θ_run_frame_around_T cfgs (0 : Fin 1) launch0 defs₀ Variants.none (fun c => (dats m 0 c).toRForget forgets) laterWrites m ρ main
    (hbody := fun c => (body_obligation m c).toRForget) (hshare := fun c => ((dats m 0 c).toRForget forgets).share_full fun _ => rfl)
    (howed := fun _ _ => rfl) (V₀ := V0 m) (opss := [hostOps1]) (hsub := later_sub) (hfresh := later_fresh) (hkeep := later_keeps)
    (hT := later_writes) (hmain := hmain m Variants.none) (hA := A_eq m) (hΦ := fun _ _ => rfl)

/-- The nine arguments are among those buffers, and no earlier line wrote them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c),
     ((h c).2 main_arg4 (Finset.mem_sdiff.mpr ⟨Pipeline.mem_restRefs_of main_arg4 (by decide) (by decide), by decide⟩)).trans (V_main_arg4 m c),
     ((h c).2 main_arg5 (Finset.mem_sdiff.mpr ⟨Pipeline.mem_restRefs_of main_arg5 (by decide) (by decide), by decide⟩)).trans (V_main_arg5 m c),
     ((h c).2 main_arg6 (Finset.mem_sdiff.mpr ⟨Pipeline.mem_restRefs_of main_arg6 (by decide) (by decide), by decide⟩)).trans (V_main_arg6 m c),
     ((h c).2 main_arg7 (Finset.mem_sdiff.mpr ⟨Pipeline.mem_restRefs_of main_arg7 (by decide) (by decide), by decide⟩)).trans (V_main_arg7 m c),
     ((h c).2 main_arg8 (Finset.mem_sdiff.mpr ⟨Pipeline.mem_restRefs_of main_arg8 (by decide) (by decide), by decide⟩)).trans (V_main_arg8 m c)⟩) (run_main m ρ)

end Cert.Kernel.Around

end
-- ==== Proof.KernelIdealAround.lean ====
/-
  `KernelIdeal`'s entry point around its one grid of 99 row blocks: the lines before the grid (the weights' signs transposed,
  their rows' mean absolute values, the inputs flattened to 25216 rows, the seven per-feature vectors and a zero row
  stacked into one 8-row table) write buffers of their own and none of the nine arguments; the grid reads four of
  those buffers block by block and writes the 25216-row result; the one line after it reshapes that result. What each
  buffer holds when the grid is entered is the earlier lines' composed value (`V`); each argument holds there, and
  after the last line, what it held at launch.
-/
import proofs.«124440_j8117488190192_2_alg».proof.Proof.Gen.KernelIdeal.Launch
import proofs.«124440_j8117488190192_2_alg».proof.Proof.Gen.KernelIdeal.Skeleton
import proofs.«124440_j8117488190192_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The lines around the grid -/

/-- What every buffer of core `c` holds when the grid is entered: the launch contents run through the lines before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No line before the grid allocates a buffer. -/
theorem hostOps0_fresh : (hostOps0 : List (HloOp τ sig (Elt F))).Forall fun op => op.fresh = ∅ := by
  simp only [List.Forall]; repeat' constructor
/-- Nor does the reshape after it. -/
theorem hostOps1_fresh : (hostOps1 : List (HloOp τ sig (Elt F))).Forall fun op => op.fresh = ∅ := by
  simp only [List.Forall]; repeat' constructor

/-- The entry point is the earlier lines, the grid, the later line: it reduces to the grid continued by the later
    line, every buffer at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later line touches only buffers of the core that outlive the grid. -/
theorem later_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem later_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- It writes none of the five arrays the grid reads or writes: only the reshaped result. -/
theorem later_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The one buffer the later line writes: the reshaped result. -/
def laterWrites : Finset (Ref sig .tc) := {main_v20}
theorem later_writes : ∀ ops ∈ ([hostOps1] : List (List (HloOp τ sig (Elt F)))), ∀ op ∈ ops,
    ∀ b : Ref sig .tc, Proc.devRef .tc b ∈ op.writes → b ∈ laterWrites := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, StableHlo.nary_writes, Finset.mem_singleton] at hb; cases Proc.devRef_injective _ hb; decide

/-! ## The arguments are written by no line -/

/-- No line before the grid writes the hidden states: the grid finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the hidden states ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No line before the grid writes the weight matrix: the grid finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the weight matrix ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No line before the grid writes the bias: the grid finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the bias ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No line before the grid writes the input shift: the grid finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the input shift ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No line before the grid writes the normalisation scale: the grid finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the normalisation scale ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No line before the grid writes the normalisation offset: the grid finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the normalisation offset ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No line before the grid writes the first shift: the grid finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the first shift ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No line before the grid writes the rectifier slope: the grid finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the rectifier slope ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No line before the grid writes the second shift: the grid finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: the second shift ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The blocks the grid reads -/

/-- Array `w`'s block at grid point `t` (the part of it inside the array), read off the array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Around

end
-- ==== Proof.KernelIdealBody.lean ====
/-
  What the idealized kernel's body leaves in the result buffer, as a function of what its four input buffers hold.

  The body loads the 256 input rows, the shift row, the 768 × 3072 sign matrix and seven rows of the 8-row parameter
  table (row 6 the scales, row 0 the biases, rows 1 and 2 the normalisation's scale and offset, rows 3, 4, 5 the first
  shift, the rectifier's slope and the second shift), computes one 256 × 3072 value from them and stores it over the
  whole result buffer. `bodyOut` is that value; the body's run ends with the result buffer holding it and the input
  buffers as they were.
-/
import proofs.«124440_j8117488190192_2_alg».proof.Proof.KernelIdealAround
import Idealize.ShloMosaic.Lib.Pipeline.Value

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes -/

abbrev rRows : Rect S256x768 := Rect.unit (s := S256x768) ![0, 0] S256x768.size inb_S256x768_S256x768_0_0
abbrev rShift : Rect S1x768 := Rect.unit (s := S1x768) ![0, 0] S1x768.size inb_S1x768_S1x768_0_0
abbrev rSigns : Rect S768x3072 := Rect.unit (s := S768x3072) ![0, 0] S768x3072.size inb_S768x3072_S768x3072_0_0
abbrev rPar0 : Rect S8x3072 := Rect.unit (s := S8x3072) ![0, 0] S1x3072.size inb_S8x3072_S1x3072_0_0
abbrev rPar1 : Rect S8x3072 := Rect.unit (s := S8x3072) ![1, 0] S1x3072.size inb_S8x3072_S1x3072_1_0
abbrev rPar2 : Rect S8x3072 := Rect.unit (s := S8x3072) ![2, 0] S1x3072.size inb_S8x3072_S1x3072_2_0
abbrev rPar3 : Rect S8x3072 := Rect.unit (s := S8x3072) ![3, 0] S1x3072.size inb_S8x3072_S1x3072_3_0
abbrev rPar4 : Rect S8x3072 := Rect.unit (s := S8x3072) ![4, 0] S1x3072.size inb_S8x3072_S1x3072_4_0
abbrev rPar5 : Rect S8x3072 := Rect.unit (s := S8x3072) ![5, 0] S1x3072.size inb_S8x3072_S1x3072_5_0
abbrev rPar6 : Rect S8x3072 := Rect.unit (s := S8x3072) ![6, 0] S1x3072.size inb_S8x3072_S1x3072_6_0
abbrev rOut : Rect S256x3072 := Rect.unit (s := S256x3072) ![0, 0] S256x3072.size inb_S256x3072_S256x3072_0_0

/-! ## What the body stores -/

/-- The stored value, from the four input buffers' contents. -/
def bodyVal (x0 : Vec F S256x768 .f32) (x1 : Vec F S1x768 .f32) (x2 : Vec F S768x3072 .bf16) (x3 : Vec F S8x3072 .f32) : Vec F S256x3072 .f32 :=
  k0_pay1 (k0_pay2 (View.ld x0 rRows))
    (k0_pay3 (View.ld x0 rRows) (View.ld x1 rShift) (View.ld x2 rSigns) (View.ld x3 rPar6) (View.ld x3 rPar0))
    (k0_pay4 (View.ld x0 rRows) (View.ld x1 rShift) (View.ld x2 rSigns) (View.ld x3 rPar6) (View.ld x3 rPar0))
    (k0_pay5 (View.ld x0 rRows) (View.ld x1 rShift) (View.ld x2 rSigns) (View.ld x3 rPar6) (View.ld x3 rPar0))
    (k0_pay6 (View.ld x3 rPar1)) (View.ld x3 rPar2) (View.ld x3 rPar3) (View.ld x3 rPar4) (View.ld x3 rPar5)

/-- The result buffer after the body: its one store, over the whole buffer. -/
def bodyOut (x0 : Vec F S256x768 .f32) (x1 : Vec F S1x768 .f32) (x2 : Vec F S768x3072 .bf16) (x3 : Vec F S8x3072 .f32) : Vec F S256x3072 .f32 :=
  View.canon [⟨rOut, bodyVal x0 x1 x2 x3⟩]

/-- The one store covers the buffer. -/
theorem cover_out (p0 : Vec F S256x3072 .f32) (y : S256x3072.Idx) :
    ∃ pc ∈ ([⟨rOut, p0⟩] : List (View.Piece (Elt F) S256x3072 .f32)), y ∈ pc.1.set :=
  View.cover_of_tiled [⟨rOut, p0⟩] S256x3072.size (by rfl) y

/-- So the buffer holds the stored value. -/
theorem bodyOut_eq (x0 : Vec F S256x768 .f32) (x1 : Vec F S1x768 .f32) (x2 : Vec F S768x3072 .bf16) (x3 : Vec F S8x3072 .f32) :
    bodyOut x0 x1 x2 x3 = bodyVal x0 x1 x2 x3 := by
  have hz : (![0, 0] : Fin 2 → Nat) = fun _ => 0 := funext fun a => by fin_cases a <;> rfl
  unfold bodyOut
  exact View.canon_unit_zero hz _ _

/-! ## The body's run -/

set_option maxHeartbeats 4000000 in
/-- The body on whole buffers, the four inputs' at contents `x0 … x3` and the result's at anything: it runs to the
    continuation holding the inputs' as they were and the result's at `bodyOut x0 x1 x2 x3`. -/
theorem sound_kernel (c : Dev nD) (E : Set ℕ) (i : grid0.Coords)
    (arg1 : Memref sig .tc .vmem S256x768 .f32) (harg1 : arg1.IsWhole) (arg2 : Memref sig .tc .vmem S1x768 .f32) (harg2 : arg2.IsWhole)
    (arg3 : Memref sig .tc .vmem S768x3072 .bf16) (harg3 : arg3.IsWhole) (arg4 : Memref sig .tc .vmem S8x3072 .f32) (harg4 : arg4.IsWhole)
    (arg5 : Memref sig .tc .vmem S256x3072 .f32) (harg5 : arg5.IsWhole)
    (x0 : Vec F S256x768 .f32) (x1 : Vec F S1x768 .f32) (x2 : Vec F S768x3072 .bf16) (x3 : Vec F S8x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (bodyOut x0 x1 x2 x3)) -∗ K ⟨⟩))
      ⊢ wp frame (wpE (defs₀ (F := F)) Variants.none c none) E (cc0__dense_mlp_kernel i arg1 harg1 arg2 harg2 arg3 harg3 arg4 harg4 arg5 harg5) K := by
  simp only [cc0__dense_mlp_kernel_eq_skeleton]; unfold cc0__dense_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover_out _)

end Cert.KernelIdeal.Around

end
-- ==== Proof.Spec.lean ====
/-
  The function both programs compute, one token (one row of 768 inputs) at a time, on the extended reals.

  A token's inputs `x` are shifted by `mv` and reduced to their signs `s h = sign (x h + mv h)`; feature `j` of the
  3072 pre-activations is the inner product of `s` with the signs of row `j` of the weight matrix, scaled by that
  row's mean absolute value `α j`, plus a bias. The scale may multiply the finished sum (`preactFactored`) or every
  weight before the sum (`preactScaled`): the two agree when the signs, the weights' signs and the scale are real
  numbers (`preactFactored_eq_preactScaled`), because a real factor moves across a finite sum of reals.
  The pre-activations are then normalised over the 3072 features (mean, variance about the mean, the reciprocal
  square root of the variance plus a small constant), mapped affinely feature by feature, added to the token's own
  inputs repeated four times, shifted, passed through a leaky rectifier with a per-feature slope, and shifted again
  (`rowOut`).
-/
import Idealize.ShloMosaic.PureOps.Ideal
import Idealize.ShloMosaic.PureOps.Ideal.Laws

noncomputable section

namespace Cert.BinaryDense

open Idealize.ShloMosaic

/-- The four float words the two programs share, as the extended reals they denote: zero, 768, 3072 and the small
    constant added to the variance. The same word stands on both sides, so none but zero is ever evaluated. -/
abbrev wordZero : EReal := Ideal.ofBits .f32 0x00000000#32
abbrev word768 : EReal := Ideal.ofBits .f32 0x44400000#32
abbrev word3072 : EReal := Ideal.ofBits .f32 0x45400000#32
abbrev wordEps : EReal := Ideal.ofBits .f32 0x2B8CBCCC#32

/-- The absolute value of an extended real. -/
def absE (x : EReal) : EReal := max x (-x)

/-- The mean of 768 entries: their sum divided by the word 768. -/
def mean768 (a : Fin 768 → EReal) : EReal := Ideal.div (∑ h : Fin 768, a h) word768

/-- The mean of 3072 entries: their sum divided by the word 3072. -/
def mean3072 (y : Fin 3072 → EReal) : EReal := Ideal.div (∑ j : Fin 3072, y j) word3072

/-- Feature `i` less the mean of the features. -/
def centred (y : Fin 3072 → EReal) (i : Fin 3072) : EReal := y i - mean3072 y

/-- The mean of the squared deviations. -/
def variance (y : Fin 3072 → EReal) : EReal := mean3072 fun j => centred y j * centred y j

/-- The normalised feature: its deviation times the reciprocal square root of the variance plus the small constant. -/
def normalised (y : Fin 3072 → EReal) (i : Fin 3072) : EReal := centred y i * Ideal.rsqrt (variance y + wordEps)

/-- From a normalised feature `n` to the result: scale `g` and offset `be`, the residual `res`, the shift `m1`, the
    rectifier that keeps a non-negative value and multiplies a negative one by `pa`, the shift `m2`. -/
def finish (n res g be m1 pa m2 : EReal) : EReal :=
  Scalar.select (Ideal.cmp .oge (n * g + be + res - m1) wordZero) (n * g + be + res - m1) (pa * (n * g + be + res - m1)) + m2

/-- Pre-activation `j` with the scale applied to the finished inner product. -/
def preactFactored (s : Fin 768 → EReal) (sw : Fin 768 → Fin 3072 → EReal) (α b : Fin 3072 → EReal) (j : Fin 3072) : EReal :=
  (∑ h : Fin 768, s h * sw h j) * α j + b j

/-- Pre-activation `j` with the scale applied to every weight before the inner product. -/
def preactScaled (s : Fin 768 → EReal) (w : Fin 3072 → Fin 768 → EReal) (α b : Fin 3072 → EReal) (j : Fin 3072) : EReal :=
  (∑ h : Fin 768, s h * (α j * w j h)) + b j

/-- The position among the token's 768 inputs that feature `i` of the four-fold repetition reads. -/
def wrap (i : Fin 3072) : Fin 768 := ⟨i.val % 768, Nat.mod_lt _ (by norm_num)⟩

/-- One token's result at feature `i`, from its pre-activations `y`, its inputs `x` and the per-feature parameters. -/
def rowOut (y : Fin 3072 → EReal) (x : Fin 768 → EReal) (g be m1 pa m2 : Fin 3072 → EReal) (i : Fin 3072) : EReal :=
  finish (normalised y i) (x (wrap i)) (g i) (be i) (m1 i) (pa i) (m2 i)

end Cert.BinaryDense

end
-- ==== Proof.KernelRow.lean ====
/-
  The kernel's stored value read at one element. For a token (row) `r` of the block and a feature `i`, the value the
  kernel stores at `(r, i)` is the specification's `rowOut` of the token's pre-activations: the pre-activations are
  the sign inner products scaled and shifted (`preactFactored`), their mean and variance are the row sums divided by
  the word 3072, and the tail is the affine map, the residual read at `i mod 768`, the shifts and the leaky rectifier.
  The lemmas below read each non-pointwise operation (matrix product, row sum, the column cast and the two broadcasts,
  the four-fold repetition) at an index written by its coordinates; the theorems after them read the kernel's
  payloads one by one.
-/
import proofs.«124440_j8117488190192_2_alg».proof.Proof.Gen.KernelIdeal.Skeleton
import proofs.«124440_j8117488190192_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx

/-! ## The non-pointwise operations read at an index -/

/-- The left operand's row coordinate at an output index is the output's row. -/
theorem lhsIdx_row (i : S256x3072.Idx) (q : dot_S256x768_S768x3072_S256x3072_1_0_0_1_n_n.contr.Idx) :
    (dot_S256x768_S768x3072_S256x3072_1_0_0_1_n_n.lhsIdx i q 0).val = (i 0).val := by
  unfold DotDims.lhsIdx
  rw [dif_neg (show ¬(0 : Fin S256x768.rank) ∈ dot_S256x768_S768x3072_S256x3072_1_0_0_1_n_n.lhsBatch by decide),
    dif_pos (show (0 : Fin S256x768.rank) ∈ dot_S256x768_S768x3072_S256x3072_1_0_0_1_n_n.lhsNonContracting by decide)]
  rfl

/-- The right operand's column coordinate at an output index is the output's column. -/
theorem rhsIdx_col (i : S256x3072.Idx) (q : dot_S256x768_S768x3072_S256x3072_1_0_0_1_n_n.contr.Idx) :
    (dot_S256x768_S768x3072_S256x3072_1_0_0_1_n_n.rhsIdx i q 1).val = (i 1).val := by
  unfold DotDims.rhsIdx
  rw [dif_neg (show ¬(1 : Fin S768x3072.rank) ∈ dot_S256x768_S768x3072_S256x3072_1_0_0_1_n_n.rhsBatch by decide),
    dif_pos (show (1 : Fin S768x3072.rank) ∈ dot_S256x768_S768x3072_S256x3072_1_0_0_1_n_n.rhsNonContracting by decide)]
  rfl

/-- The matrix product into the zero accumulator, at `(r, j)`: the sum over the 768 inputs of the products. -/
theorem matmul_at (lhs : FVec Ideal S256x768 .bf16) (rhs : FVec Ideal S768x3072 .bf16) (r : Fin 256) (j : Fin 3072) :
    matmul dot_S256x768_S768x3072_S256x3072_1_0_0_1_n_n none lhs rhs (constant S256x3072 .f32 0x00000000#32) (ix2 r j)
      = ∑ h : Fin 768, lhs (ix2 r h) * rhs (ix2 h j) := by
  simp only [matmul]
  rw [Ideal.matmul_constant_zero_apply,
    ← Equiv.sum_comp (contrEquiv1 dot_S256x768_S768x3072_S256x3072_1_0_0_1_n_n 768 rfl rfl).symm]
  refine Finset.sum_congr rfl fun k _ => ?_
  have hk := contrEquiv1_symm_val dot_S256x768_S768x3072_S256x3072_1_0_0_1_n_n 768 rfl rfl k
  have el : dot_S256x768_S768x3072_S256x3072_1_0_0_1_n_n.lhsIdx (ix2 r j)
      ((contrEquiv1 dot_S256x768_S768x3072_S256x3072_1_0_0_1_n_n 768 rfl rfl).symm k) = ix2 r k :=
    funext fun a => Fin.ext (by
      match a with
      | ⟨0, _⟩ => exact lhsIdx_row _ _
      | ⟨1, _⟩ => exact (dot_S256x768_S768x3072_S256x3072_1_0_0_1_n_n.lhsIdx_val_of_single rfl _ _).trans hk)
  have er : dot_S256x768_S768x3072_S256x3072_1_0_0_1_n_n.rhsIdx (ix2 r j)
      ((contrEquiv1 dot_S256x768_S768x3072_S256x3072_1_0_0_1_n_n 768 rfl rfl).symm k) = ix2 k j :=
    funext fun a => Fin.ext (by
      match a with
      | ⟨0, _⟩ => exact (dot_S256x768_S768x3072_S256x3072_1_0_0_1_n_n.rhsIdx_val_of_single rfl _ _).trans hk
      | ⟨1, _⟩ => exact rhsIdx_col _ _)
  rw [el, er]

/-- The sum along the features, at row `r`: the sum over the 3072 features of that row. -/
theorem rowsum_at (src : FVec Ideal S256x3072 .f32) (hφ : FKind.Formats .f32)
    (hacc : (0x00000000#32 : BitVec 32) = FKind.add.neutral .f32 hφ) (r : Fin 256) :
    multiReduction (F := Ideal) .add [1] S256 src 0x00000000#32 reduces_S256x3072_S256 hφ hacc (ix1 r)
      = ∑ j : Fin 3072, src (ix2 r j) := by
  refine (Ideal.multiReduction_add_single src 0x00000000#32 reduces_S256x3072_S256 hφ hacc (ix1 r)).trans ?_
  refine Finset.sum_congr rfl fun k _ => congrArg src (funext fun a => Fin.ext ?_)
  match a with
  | ⟨0, _⟩ => rfl
  | ⟨1, _⟩ => rfl

/-- A vector of 256 entries viewed as a column reads, at `(r, u)`, the entry `r`. -/
theorem col_cast_at {α : Type} (v : S256.Idx → α) (r : Fin 256) (u : Fin 1) :
    shapeCast S256x1 v shapeCasts_S256_S256x1 (ix2 r u) = v (ix1 r) :=
  shapeCast_apply v shapeCasts_S256_S256x1 _ _ (by
    have hu : u.val = 0 := by omega
    rw [Shape.rowMajor_val_two, Shape.rowMajor_val_one]
    show r.val = r.val * 1 + u.val
    rw [hu, Nat.mul_one, Nat.add_zero])

/-- A column broadcast along the features reads, at `(r, i)`, the column's entry `r`. -/
theorem col_bcast_at {α : Type} (v : S256x1.Idx → α) (r : Fin 256) (i : Fin 3072) :
    broadcastTo S256x3072 v broadcasts_S256x1_S256x3072 (ix2 r i) = v (ix2 r (0 : Fin 1)) := by
  refine broadcastTo_apply v broadcasts_S256x1_S256x3072 (ix2 r i) (ix2 r (0 : Fin 1)) fun ax => ?_
  match ax with
  | ⟨0, _⟩ =>
    show r.val = if (256 : Nat) = 1 then 0 else r.val
    rw [if_neg (by decide)]
  | ⟨1, _⟩ => rfl

/-- The four-fold repetition of a token's inputs reads, at `(r, i)`, input `i mod 768` of row `r`. -/
theorem repeat_at {α : Type} (x : S256x768.Idx → α) (r : Fin 256) (i : Fin 3072) :
    concatenate S256x3072 1 [⟨S256x768, x⟩, ⟨S256x768, x⟩, ⟨S256x768, x⟩, ⟨S256x768, x⟩]
        concatenates_S256x768_S256x768_S256x768_S256x768_S256x3072_d1 (ix2 r i)
      = x (ix2 r (Cert.BinaryDense.wrap i)) := by
  refine concatenate_replicate_apply (t := S256x3072) (s₁ := S256x768) 1 4 x
    concatenates_S256x768_S256x768_S256x768_S256x768_S256x3072_d1 rfl (ix2 r i) (ix2 r (Cert.BinaryDense.wrap i)) rfl
    fun b hb => ?_
  match b with
  | ⟨0, _⟩ => rfl
  | ⟨1, _⟩ => exact absurd rfl hb

/-! ## The payloads read at an index -/

/-- The printed sign of a vector, narrowed for the matrix product, reads `Ideal.sign` of the element. -/
theorem sign_at (x : FVec Ideal S256x768 .f32) (i : S256x768.Idx) :
    (truncf .bf16 (select (cmpf .ogt (absf x) (broadcast S256x768 (Scalar.ofBits .f32 0x00000000#32)))
        (select (cmpf .olt x (constant S256x768 .f32 0x00000000#32)) (constant S256x768 .f32 0xBF800000#32)
          (constant S256x768 .f32 0x3F800000#32)) x) bitsLt_bf16_f32 : FVec Ideal S256x768 .bf16) i
      = Ideal.sign (x i) :=
  Ideal.jnp_sign_eq_sign_f32 (x i)

/-- The pre-activations at `(r, j)`: the inner product of the signs of the shifted inputs of token `r` with column `j`
    of the weights, times the scale, plus the bias. -/
theorem pay3_at (v0 : Vec Ideal S256x768 .f32) (v2 : Vec Ideal S1x768 .f32) (v17 : Vec Ideal S768x3072 .bf16)
    (v20 v22 : Vec Ideal S1x3072 .f32) (r : Fin 256) (j : Fin 3072) :
    k0_pay3 (F := Ideal) v0 v2 v17 v20 v22 (ix2 r j)
      = Cert.BinaryDense.preactFactored (fun h => Ideal.sign (v0 (ix2 r h) + v2 (ix2 (0 : Fin 1) h)))
          (fun h j => v17 (ix2 h j)) (fun j => v20 (ix2 (0 : Fin 1) j)) (fun j => v22 (ix2 (0 : Fin 1) j)) j := by
  unfold k0_pay3 k0_pay2 Cert.BinaryDense.preactFactored
  simp only [shapeCast_self]
  rw [addf_apply, mulf_apply, matmul_at, broadcastTo_1b_ab_apply, broadcastTo_1b_ab_apply]
  refine congrArg (· * v20 (ix2 (0 : Fin 1) j) + v22 (ix2 (0 : Fin 1) j)) (Finset.sum_congr rfl fun h _ => ?_)
  rw [sign_at, addf_apply, broadcastTo_1b_ab_apply]

/-- The row sum divided by the word 3072, viewed as a column: at `(r, u)` the mean of row `r`. -/
theorem mean_at (y : FVec Ideal S256x3072 .f32) (hφ : FKind.Formats .f32)
    (hacc : (0x00000000#32 : BitVec 32) = FKind.add.neutral .f32 hφ) (r : Fin 256) (u : Fin 1) :
    divf (shapeCast S256x1 (multiReduction (F := Ideal) .add [1] S256 y 0x00000000#32 reduces_S256x3072_S256 hφ hacc)
        shapeCasts_S256_S256x1) (broadcast S256x1 (Scalar.ofBits (F := Ideal) .f32 0x45400000#32)) (ix2 r u)
      = Cert.BinaryDense.mean3072 fun j => y (ix2 r j) := by
  rw [divf_apply, col_cast_at, rowsum_at, broadcast_apply]
  rfl

/-- The mean of the pre-activations of token `r`. -/
theorem pay4_at (v0 : Vec Ideal S256x768 .f32) (v2 : Vec Ideal S1x768 .f32) (v17 : Vec Ideal S768x3072 .bf16)
    (v20 v22 : Vec Ideal S1x3072 .f32) (r : Fin 256) (u : Fin 1) :
    k0_pay4 (F := Ideal) v0 v2 v17 v20 v22 (ix2 r u)
      = Cert.BinaryDense.mean3072 fun j => k0_pay3 (F := Ideal) v0 v2 v17 v20 v22 (ix2 r j) := by
  unfold k0_pay4
  exact mean_at _ _ _ r u

/-- The mean of the squared deviations from a column `m` that holds the row's mean: the row's variance. -/
theorem var_at (y : FVec Ideal S256x3072 .f32) (m : FVec Ideal S256x1 .f32) (hφ : FKind.Formats .f32)
    (hacc : (0x00000000#32 : BitVec 32) = FKind.add.neutral .f32 hφ) (r : Fin 256) (u : Fin 1)
    (hm : m (ix2 r (0 : Fin 1)) = Cert.BinaryDense.mean3072 fun j => y (ix2 r j)) :
    divf (shapeCast S256x1 (multiReduction (F := Ideal) .add [1] S256
          (mulf (subf y (broadcastTo S256x3072 m broadcasts_S256x1_S256x3072))
            (subf y (broadcastTo S256x3072 m broadcasts_S256x1_S256x3072)))
          0x00000000#32 reduces_S256x3072_S256 hφ hacc)
        shapeCasts_S256_S256x1) (broadcast S256x1 (Scalar.ofBits (F := Ideal) .f32 0x45400000#32)) (ix2 r u)
      = Cert.BinaryDense.variance fun j => y (ix2 r j) := by
  refine (mean_at _ hφ hacc r u).trans ?_
  unfold Cert.BinaryDense.variance Cert.BinaryDense.centred
  refine congrArg Cert.BinaryDense.mean3072 (funext fun j => ?_)
  rw [mulf_apply, subf_apply, col_bcast_at, hm]

/-- The variance of the pre-activations of token `r`. -/
theorem pay5_at (v0 : Vec Ideal S256x768 .f32) (v2 : Vec Ideal S1x768 .f32) (v17 : Vec Ideal S768x3072 .bf16)
    (v20 v22 : Vec Ideal S1x3072 .f32) (r : Fin 256) (u : Fin 1) :
    k0_pay5 (F := Ideal) v0 v2 v17 v20 v22 (ix2 r u)
      = Cert.BinaryDense.variance fun j => k0_pay3 (F := Ideal) v0 v2 v17 v20 v22 (ix2 r j) := by
  unfold k0_pay5
  exact var_at _ _ _ _ r u (pay4_at v0 v2 v17 v20 v22 r 0)

/-- A reciprocal square root of a vector reads the reciprocal square root of the element. -/
theorem rsqrt_at {s : Shape} {φ : FTy} (a : FVec Ideal s φ) (i : s.Idx) : rsqrt a i = Ideal.rsqrt (a i) := rfl

/-- The stored value at `(r, i)` from the pre-activations `v27`, their mean `v31` and variance `v38` (columns), the
    token's inputs `v1` and the five per-feature rows: the specification's tail `finish` of the normalised feature. -/
theorem pay1_at (v1 : FVec Ideal S256x768 .f32) (v27 : FVec Ideal S256x3072 .f32) (v31 v38 : FVec Ideal S256x1 .f32)
    (v40 : FVec Ideal S1x3072 .f32) (v41 v56 v58 v60 : Vec Ideal S1x3072 .f32) (r : Fin 256) (i : Fin 3072) :
    k0_pay1 (F := Ideal) v1 v27 v31 v38 v40 v41 v56 v58 v60 (ix2 r i)
      = Cert.BinaryDense.finish
          ((v27 (ix2 r i) - v31 (ix2 r (0 : Fin 1))) * Ideal.rsqrt (v38 (ix2 r (0 : Fin 1)) + Cert.BinaryDense.wordEps))
          (v1 (ix2 r (Cert.BinaryDense.wrap i))) (v40 (ix2 (0 : Fin 1) i)) (v41 (ix2 (0 : Fin 1) i))
          (v56 (ix2 (0 : Fin 1) i)) (v58 (ix2 (0 : Fin 1) i)) (v60 (ix2 (0 : Fin 1) i)) := by
  unfold k0_pay1 Cert.BinaryDense.finish
  simp only [shapeCast_self, addf_apply, subf_apply, mulf_apply, select_apply, cmpf_apply, broadcast_apply, rsqrt_at,
    col_bcast_at, broadcastTo_1b_ab_apply, repeat_at, Ideal.cmpf_def]
  rfl

/-- THE KERNEL'S STORED VALUE AT `(r, i)`: the specification's `rowOut` at feature `i` of the pre-activations of token
    `r`, of the token's inputs and of the per-feature scale, offset, shifts and slope. -/
theorem payload_at (v0 : Vec Ideal S256x768 .f32) (v2 : Vec Ideal S1x768 .f32) (v17 : Vec Ideal S768x3072 .bf16)
    (v20 v22 v39 v41 v56 v58 v60 : Vec Ideal S1x3072 .f32) (r : Fin 256) (i : Fin 3072) :
    k0_pay1 (F := Ideal) (k0_pay2 v0) (k0_pay3 v0 v2 v17 v20 v22) (k0_pay4 v0 v2 v17 v20 v22) (k0_pay5 v0 v2 v17 v20 v22)
        (k0_pay6 v39) v41 v56 v58 v60 (ix2 r i)
      = Cert.BinaryDense.rowOut
          (Cert.BinaryDense.preactFactored (fun h => Ideal.sign (v0 (ix2 r h) + v2 (ix2 (0 : Fin 1) h)))
            (fun h j => v17 (ix2 h j)) (fun j => v20 (ix2 (0 : Fin 1) j)) (fun j => v22 (ix2 (0 : Fin 1) j)))
          (fun h => v0 (ix2 r h)) (fun j => v39 (ix2 (0 : Fin 1) j)) (fun j => v41 (ix2 (0 : Fin 1) j))
          (fun j => v56 (ix2 (0 : Fin 1) j)) (fun j => v58 (ix2 (0 : Fin 1) j)) (fun j => v60 (ix2 (0 : Fin 1) j)) i := by
  have h3 : (fun j => k0_pay3 (F := Ideal) v0 v2 v17 v20 v22 (ix2 r j))
      = Cert.BinaryDense.preactFactored (fun h => Ideal.sign (v0 (ix2 r h) + v2 (ix2 (0 : Fin 1) h)))
          (fun h j => v17 (ix2 h j)) (fun j => v20 (ix2 (0 : Fin 1) j)) (fun j => v22 (ix2 (0 : Fin 1) j)) :=
    funext fun j => pay3_at v0 v2 v17 v20 v22 r j
  refine (pay1_at _ _ _ _ _ v41 v56 v58 v60 r i).trans ?_
  rw [pay4_at, pay5_at, h3, pay3_at]
  unfold k0_pay2 k0_pay6 Cert.BinaryDense.rowOut Cert.BinaryDense.normalised Cert.BinaryDense.centred
  simp only [shapeCast_self]

end Cert.KernelIdeal.RowValue

end
-- ==== Proof.KernelIdealRun.lean ====
/-
  The idealized kernel's result array after the grid, as one function of the arrays the grid reads.

  Row `R` of the 25216-row result depends on row `R` of the flattened inputs only (and on the shift row, the sign
  matrix and the parameter table, which every point reads whole): `resultArr` at `(R, i)` is the specification's
  `rowOut` of that row. Grid point `t` computes rows 256·t … of it: on the rows of its block that lie inside the
  array the input buffer holds the array's rows whatever the rows past the array's end hold, so on those rows the
  stored value is the block of `resultArr` — which is all the last point, whose block hangs over the end by 128
  rows, writes back. The 99 blocks cover the 25216 rows, so the array ends holding `resultArr`.
-/
import proofs.«124440_j8117488190192_2_alg».proof.Proof.KernelIdealBody
import proofs.«124440_j8117488190192_2_alg».proof.Proof.KernelRow
import Idealize.ShloMosaic.Lib.ValueIdx

set_option maxRecDepth 16384

noncomputable section

namespace Cert.KernelIdeal.Around

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.BinaryDense

local notation "𝕄" => MT nD τ sig Unit (Elt Ideal) ℕ (UR sig nD τ) ℕ

/-! ## The stored value at an index -/

theorem ld_par0 (x3 : Vec Ideal S8x3072 .f32) (j : Fin 3072) : View.ld x3 rPar0 (ix2 (0 : Fin 1) j) = x3 (ix2 (0 : Fin 8) j) := by
  show x3 (rPar0.idx _) = _
  refine congrArg x3 (funext fun a => Fin.ext ?_)
  match a with
  | ⟨0, _⟩ => show 0 + 1 * 0 = 0; omega
  | ⟨1, _⟩ => show 0 + 1 * j.val = j.val; omega
theorem ld_par1 (x3 : Vec Ideal S8x3072 .f32) (j : Fin 3072) : View.ld x3 rPar1 (ix2 (0 : Fin 1) j) = x3 (ix2 (1 : Fin 8) j) := by
  show x3 (rPar1.idx _) = _
  refine congrArg x3 (funext fun a => Fin.ext ?_)
  match a with
  | ⟨0, _⟩ => show 1 + 1 * 0 = 1; omega
  | ⟨1, _⟩ => show 0 + 1 * j.val = j.val; omega
theorem ld_par2 (x3 : Vec Ideal S8x3072 .f32) (j : Fin 3072) : View.ld x3 rPar2 (ix2 (0 : Fin 1) j) = x3 (ix2 (2 : Fin 8) j) := by
  show x3 (rPar2.idx _) = _
  refine congrArg x3 (funext fun a => Fin.ext ?_)
  match a with
  | ⟨0, _⟩ => show 2 + 1 * 0 = 2; omega
  | ⟨1, _⟩ => show 0 + 1 * j.val = j.val; omega
theorem ld_par3 (x3 : Vec Ideal S8x3072 .f32) (j : Fin 3072) : View.ld x3 rPar3 (ix2 (0 : Fin 1) j) = x3 (ix2 (3 : Fin 8) j) := by
  show x3 (rPar3.idx _) = _
  refine congrArg x3 (funext fun a => Fin.ext ?_)
  match a with
  | ⟨0, _⟩ => show 3 + 1 * 0 = 3; omega
  | ⟨1, _⟩ => show 0 + 1 * j.val = j.val; omega
theorem ld_par4 (x3 : Vec Ideal S8x3072 .f32) (j : Fin 3072) : View.ld x3 rPar4 (ix2 (0 : Fin 1) j) = x3 (ix2 (4 : Fin 8) j) := by
  show x3 (rPar4.idx _) = _
  refine congrArg x3 (funext fun a => Fin.ext ?_)
  match a with
  | ⟨0, _⟩ => show 4 + 1 * 0 = 4; omega
  | ⟨1, _⟩ => show 0 + 1 * j.val = j.val; omega
theorem ld_par5 (x3 : Vec Ideal S8x3072 .f32) (j : Fin 3072) : View.ld x3 rPar5 (ix2 (0 : Fin 1) j) = x3 (ix2 (5 : Fin 8) j) := by
  show x3 (rPar5.idx _) = _
  refine congrArg x3 (funext fun a => Fin.ext ?_)
  match a with
  | ⟨0, _⟩ => show 5 + 1 * 0 = 5; omega
  | ⟨1, _⟩ => show 0 + 1 * j.val = j.val; omega
theorem ld_par6 (x3 : Vec Ideal S8x3072 .f32) (j : Fin 3072) : View.ld x3 rPar6 (ix2 (0 : Fin 1) j) = x3 (ix2 (6 : Fin 8) j) := by
  show x3 (rPar6.idx _) = _
  refine congrArg x3 (funext fun a => Fin.ext ?_)
  match a with
  | ⟨0, _⟩ => show 6 + 1 * 0 = 6; omega
  | ⟨1, _⟩ => show 0 + 1 * j.val = j.val; omega

/-- The value the body stores, at row `r` and feature `i` of the block: the specification's row function of row `r` of
    the input buffer, the shift row, the sign matrix and the seven parameter rows. -/
theorem bodyVal_at (x0 : Vec Ideal S256x768 .f32) (x1 : Vec Ideal S1x768 .f32) (x2 : Vec Ideal S768x3072 .bf16) (x3 : Vec Ideal S8x3072 .f32)
    (r : Fin 256) (i : Fin 3072) :
    bodyVal (F := Ideal) x0 x1 x2 x3 (ix2 r i)
      = rowOut (preactFactored (fun h => Ideal.sign (x0 (ix2 r h) + x1 (ix2 (0 : Fin 1) h))) (fun h j => x2 (ix2 h j))
            (fun j => x3 (ix2 (6 : Fin 8) j)) (fun j => x3 (ix2 (0 : Fin 8) j)))
          (fun h => x0 (ix2 r h)) (fun j => x3 (ix2 (1 : Fin 8) j)) (fun j => x3 (ix2 (2 : Fin 8) j)) (fun j => x3 (ix2 (3 : Fin 8) j))
          (fun j => x3 (ix2 (4 : Fin 8) j)) (fun j => x3 (ix2 (5 : Fin 8) j)) i := by
  have hz : (![0, 0] : Fin 2 → Nat) = fun _ => 0 := funext fun a => by fin_cases a <;> rfl
  unfold bodyVal
  rw [View.ld_unit_zero hz, View.ld_unit_zero hz, View.ld_unit_zero hz]
  rw [RowValue.payload_at]
  rw [show (fun j => View.ld x3 rPar6 (ix2 (0 : Fin 1) j)) = (fun j => x3 (ix2 (6 : Fin 8) j)) from funext (ld_par6 x3),
    show (fun j => View.ld x3 rPar0 (ix2 (0 : Fin 1) j)) = (fun j => x3 (ix2 (0 : Fin 8) j)) from funext (ld_par0 x3),
    show (fun j => View.ld x3 rPar1 (ix2 (0 : Fin 1) j)) = (fun j => x3 (ix2 (1 : Fin 8) j)) from funext (ld_par1 x3),
    show (fun j => View.ld x3 rPar2 (ix2 (0 : Fin 1) j)) = (fun j => x3 (ix2 (2 : Fin 8) j)) from funext (ld_par2 x3),
    show (fun j => View.ld x3 rPar3 (ix2 (0 : Fin 1) j)) = (fun j => x3 (ix2 (3 : Fin 8) j)) from funext (ld_par3 x3),
    show (fun j => View.ld x3 rPar4 (ix2 (0 : Fin 1) j)) = (fun j => x3 (ix2 (4 : Fin 8) j)) from funext (ld_par4 x3),
    show (fun j => View.ld x3 rPar5 (ix2 (0 : Fin 1) j)) = (fun j => x3 (ix2 (5 : Fin 8) j)) from funext (ld_par5 x3)]

/-! ## The whole result array -/

variable (m : (ℓ : Loc nD τ sig) → Buf (Elt Ideal) ℓ) (ρ : Dev nD → PrngReg)

/-- The four arrays the grid reads, as it finds them: the flattened input rows, the shift row, the transposed sign
    matrix, the parameter table. -/
abbrev inRows (c : Dev nD) : S25216x768.Idx → EReal := V m c main_v7
abbrev inShift (c : Dev nD) : S1x768.Idx → EReal := V m c main_v8
abbrev inSigns (c : Dev nD) : S768x3072.Idx → EReal := V m c main_v6
abbrev inPars (c : Dev nD) : S8x3072.Idx → EReal := V m c main_v18

/-- Row `R`, feature `i` of the result: the row function of input row `R`. -/
def resultArr (c : Dev nD) : S25216x3072.Idx → EReal := fun J =>
  rowOut (preactFactored (fun h => Ideal.sign (inRows m c (ix2 (n0 := 25216) (J 0) h) + inShift m c (ix2 (0 : Fin 1) h)))
        (fun h j => inSigns m c (ix2 h j)) (fun j => inPars m c (ix2 (6 : Fin 8) j)) (fun j => inPars m c (ix2 (0 : Fin 8) j)))
      (fun h => inRows m c (ix2 (n0 := 25216) (J 0) h)) (fun j => inPars m c (ix2 (1 : Fin 8) j)) (fun j => inPars m c (ix2 (2 : Fin 8) j))
      (fun j => inPars m c (ix2 (3 : Fin 8) j)) (fun j => inPars m c (ix2 (4 : Fin 8) j)) (fun j => inPars m c (ix2 (5 : Fin 8) j)) (J 1)

/-! ## The proof data -/

/-- On core `c`: the five arrays as the grid finds them; after the body at point `t` the input rows' buffer at its
    block inside the array, the three resident buffers at their one block, the result's buffer at its block of
    `resultArr` (each of the two cut buffers zero past the array's end, where nothing is claimed); the invariant only
    what the grid does not touch; nothing owed. -/
def dats (_ : Fin 1) (c : Dev nD) : Dat τ (Elt Ideal) Unit ℕ (UR sig nD τ) ℕ cfg0 c where
  A w := V m c (Pipeline.arrRef spec0 w)
  after w t := match w with
    | ⟨0, _⟩ => (cfg0.win 0).fill (cfg0.grid.coords t) (fun _ => (0 : EReal)) (iblk m c 0 t)
    | ⟨1, _⟩ => iblk m c 1 t
    | ⟨2, _⟩ => iblk m c 2 t
    | ⟨3, _⟩ => iblk m c 3 t
    | ⟨4, _⟩ => (cfg0.win 4).fill (cfg0.grid.coords t) (fun _ => (0 : EReal)) (((cfg0.win 4).blk t).view.read (Elt Ideal) (resultArr m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t
    = (cfg0.win 0).fill (cfg0.grid.coords t) (fun _ => (0 : EReal)) (iblk m c 0 t) := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t
    = (cfg0.win 4).fill (cfg0.grid.coords t) (fun _ => (0 : EReal)) (((cfg0.win 4).blk t).view.read (Elt Ideal) (resultArr m c)) := by
  dsimp only [dats]

/-- The input rows are fetched at every point: the buffer holds the block on the rows inside the array and `d` past
    its end. -/
theorem before0 (c : Dev nD) (t : Fin cfg0.N) (d) :
    (dats m 0 c).before 0 t d = (cfg0.win 0).fill (cfg0.grid.coords t) d (iblk m c 0 t) := by
  unfold Dat.before; rw [if_pos (fetch0_0 t)]; rfl

/-- A resident input is fetched at the first point only and the body leaves it in place: its buffer holds its one
    block at every point. -/
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## A block's rows are the array's rows -/

/-- Where the five index maps send grid point `t`: the two moving windows to block `t`, the three resident ones to
    their one block. -/
theorem idx_facts : ∀ t : Fin cfg0.N, win0_0.index t 0 = t.val ∧ win0_0.index t 1 = 0 ∧ win0_4.index t 0 = t.val ∧ win0_4.index t 1 = 0
    ∧ win0_1.index t 0 = 0 ∧ win0_1.index t 1 = 0 ∧ win0_2.index t 0 = 0 ∧ win0_2.index t 1 = 0 ∧ win0_3.index t 0 = 0 ∧ win0_3.index t 1 = 0 :=
  (by decide +kernel : ∀ t : Fin grid0.N, _)

/-- The two moving windows are cut alike (256 rows, or the 128 left at the array's end), on the row axis only, and a
    block's rows lie inside the array. -/
theorem xsize_facts : ∀ t : Fin cfg0.N, win0_0.xsize (grid0.coords t) 0 = win0_4.xsize (grid0.coords t) 0
    ∧ win0_0.xsize (grid0.coords t) 1 = 768 ∧ win0_4.xsize (grid0.coords t) 1 = 3072
    ∧ t.val * 256 + win0_4.xsize (grid0.coords t) 0 ≤ 25216 ∧ win0_4.xsize (grid0.coords t) 0 ≤ 256 :=
  (by decide +kernel : ∀ t : Fin grid0.N, _)

/-- On a row inside the array the input rows' buffer holds the array's row, whatever lies past the array's end. -/
theorem read_rows (c : Dev nD) (t : Fin cfg0.N) (d0 : S256x768.Idx → EReal) (r : Fin 256) (R : Fin 25216)
    (hr : r.val < win0_4.xsize (grid0.coords t) 0) (hR : R.val = t.val * 256 + r.val) (h : Fin 768) :
    (cfg0.win 0).fill (cfg0.grid.coords t) d0 (iblk m c 0 t) (ix2 r h) = inRows m c (ix2 R h) := by
  obtain ⟨hx0, hx1, -, -, -⟩ := xsize_facts t
  obtain ⟨hi0, hi1, -⟩ := idx_facts t
  have hmv : (cfg0.win 0).moved (cfg0.grid.coords t) (ix2 r h) = true := by
    rw [Window.moved_iff]
    intro a
    match a with
    | ⟨0, _⟩ => show r.val < win0_0.xsize (grid0.coords t) 0; omega
    | ⟨1, _⟩ => show h.val < win0_0.xsize (grid0.coords t) 1; omega
  unfold Window.fill
  rw [dif_pos hmv]
  unfold iblk
  rw [View.read_apply]
  show V m c main_v7 _ = V m c main_v7 _
  refine congrArg (V m c main_v7) (funext fun a => Fin.ext ?_)
  match a with
  | ⟨0, _⟩ => show win0_0.index t 0 * 256 + 1 * r.val = R.val; omega
  | ⟨1, _⟩ => show win0_0.index t 1 * 768 + 1 * h.val = h.val; omega

/-- The shift row's buffer holds the shift row. -/
theorem read_shift (c : Dev nD) (t : Fin cfg0.N) (h : Fin 768) :
    iblk m c 1 t (ix2 (0 : Fin 1) h) = inShift m c (ix2 (0 : Fin 1) h) := by
  obtain ⟨-, -, -, -, hi0, hi1, -⟩ := idx_facts t
  unfold iblk
  rw [View.read_apply]
  show V m c main_v8 _ = V m c main_v8 _
  refine congrArg (V m c main_v8) (funext fun a => Fin.ext ?_)
  match a with
  | ⟨0, _⟩ => show win0_1.index t 0 * 1 + 1 * 0 = 0; omega
  | ⟨1, _⟩ => show win0_1.index t 1 * 768 + 1 * h.val = h.val; omega

/-- The sign matrix's buffer holds the sign matrix. -/
theorem read_signs (c : Dev nD) (t : Fin cfg0.N) (h : Fin 768) (j : Fin 3072) :
    iblk m c 2 t (ix2 h j) = inSigns m c (ix2 h j) := by
  obtain ⟨-, -, -, -, -, -, hi0, hi1, -⟩ := idx_facts t
  unfold iblk
  rw [View.read_apply]
  show V m c main_v6 _ = V m c main_v6 _
  refine congrArg (V m c main_v6) (funext fun a => Fin.ext ?_)
  match a with
  | ⟨0, _⟩ => show win0_2.index t 0 * 768 + 1 * h.val = h.val; omega
  | ⟨1, _⟩ => show win0_2.index t 1 * 3072 + 1 * j.val = j.val; omega

/-- The parameter table's buffer holds the table. -/
theorem read_pars (c : Dev nD) (t : Fin cfg0.N) (k : Fin 8) (j : Fin 3072) :
    iblk m c 3 t (ix2 k j) = inPars m c (ix2 k j) := by
  obtain ⟨-, -, -, -, -, -, -, -, hi0, hi1⟩ := idx_facts t
  unfold iblk
  rw [View.read_apply]
  show V m c main_v18 _ = V m c main_v18 _
  refine congrArg (V m c main_v18) (funext fun a => Fin.ext ?_)
  match a with
  | ⟨0, _⟩ => show win0_3.index t 0 * 8 + 1 * k.val = k.val; omega
  | ⟨1, _⟩ => show win0_3.index t 1 * 3072 + 1 * j.val = j.val; omega

set_option maxHeartbeats 2000000 in
/-- What point `t` writes back — the rows inside the array of what the body stored — is its block of `resultArr`,
    whatever the input buffer held past the array's end. -/
theorem block_eq (c : Dev nD) (t : Fin cfg0.N) (d0 : S256x768.Idx → EReal) :
    (cfg0.win 4).cut (cfg0.grid.coords t)
        (bodyOut (F := Ideal) ((cfg0.win 0).fill (cfg0.grid.coords t) d0 (iblk m c 0 t)) (iblk m c 1 t) (iblk m c 2 t) (iblk m c 3 t))
      = ((cfg0.win 4).blk t).view.read (Elt Ideal) (resultArr m c) := by
  funext j
  obtain ⟨-, -, hx4, hle, h256⟩ := xsize_facts t
  obtain ⟨-, -, hi0, hi1, -⟩ := idx_facts t
  have hj0 : (j 0).val < win0_4.xsize (grid0.coords t) 0 := (j 0).isLt
  have hj1 : (j 1).val < win0_4.xsize (grid0.coords t) 1 := (j 1).isLt
  have hr : (j 0).val < 256 := by omega
  have hi : (j 1).val < 3072 := by omega
  have hR : t.val * 256 + (j 0).val < 25216 := by omega
  have e1 : (cfg0.win 4).xinj (cfg0.grid.coords t) j = ix2 (⟨(j 0).val, hr⟩ : Fin 256) (⟨(j 1).val, hi⟩ : Fin 3072) := by
    unfold Window.xinj
    refine funext fun a => Fin.ext ?_
    match a with
    | ⟨0, _⟩ => show (j 0).val = (j 0).val; rfl
    | ⟨1, _⟩ => show (j 1).val = (j 1).val; rfl
  have e2 : ((cfg0.win 4).blk t).view.emb j = ix2 (⟨t.val * 256 + (j 0).val, hR⟩ : Fin 25216) (⟨(j 1).val, hi⟩ : Fin 3072) :=
    funext fun a => Fin.ext (by
      match a with
      | ⟨0, _⟩ => show win0_4.index t 0 * 256 + 1 * (j 0).val = t.val * 256 + (j 0).val; omega
      | ⟨1, _⟩ => show win0_4.index t 1 * 3072 + 1 * (j 1).val = (j 1).val; omega)
  rw [View.read_apply, e2]
  show bodyOut _ _ _ _ ((cfg0.win 4).xinj (cfg0.grid.coords t) j) = _
  rw [e1, bodyOut_eq, bodyVal_at]
  unfold resultArr
  simp only [read_rows m c t d0 ⟨(j 0).val, hr⟩ ⟨t.val * 256 + (j 0).val, hR⟩ hj0 rfl, read_shift, read_signs, read_pars]
  rfl

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the two cut buffers stated on the rows inside the array only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare
        ((cfg0.win 4).fill (cfg0.grid.coords t) d ((cfg0.win 4).cut (cfg0.grid.coords t) ((dats m 0 c).after 4 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _
    ((cfg0.win 0).fill (cfg0.grid.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    rw [(cfg0.win 0).cut_fill]
    iexact H0
  isplitl [H1]; · iexact H1
  isplitl [H2]; · iexact H2
  isplitl [H3]; · iexact H3
  iexists bodyOut (F := Ideal) ((cfg0.win 0).fill (cfg0.grid.coords t) d0 (iblk m c 0 t)) (iblk m c 1 t) (iblk m c 2 t) (iblk m c 3 t)
  rw [(cfg0.win 4).cut_fill, ← block_eq m c t d0, (cfg0.win 4).fill_cut]
  iexact H4

/-- The body obligation at every point. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- From any memory with zero counters every weakly fair execution of the entry point ends, each of the grid's five
    arrays holding what the proof data computes and every other buffer what the line after the grid leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := later_sub) (hfresh := later_fresh) (hkeep := later_keeps)
    (hmain := hmain m Variants.none) (hA := A_eq m) (hΦ := fun _ _ => rfl)

end Cert.KernelIdeal.Around

end
-- ==== Proof.KernelIdealEntry.lean ====
/-
  What the grid finds in the four arrays it reads, element by element. The lines before the grid flatten the hidden
  states to 25216 rows, view the input shift as one row, transpose the signs of the weight matrix, and stack eight
  rows of 3072 features: the bias, the normalisation scale and offset, the first shift, the rectifier slope, the second
  shift, the mean absolute value of each weight row, and a zero row. Each theorem reads one of these arrays at an index
  written by its coordinates, in terms of the arguments as launched.
-/
import proofs.«124440_j8117488190192_2_alg».proof.Proof.KernelIdealAround
import proofs.«124440_j8117488190192_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Around

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The flattened hidden states as the lines before the grid leave them: the argument reshaped. -/
theorem v7_term (c : Dev nD) :
    (V m c main_v7 : S25216x768.Idx → EReal)
      = shapeCast S25216x768 (m ((c : Thread nD τ).loc main_arg0) : S128x197x768.Idx → EReal) shapeCasts_S128x197x768_S25216x768 := by
  show StableHlo.after hostOps0 (fun b => m (c, b)) (Proc.devRef .tc main_v7) = _
  after_results
  rfl

/-- (1) Row `R` of the flattened hidden states is token `R mod 197` of sequence `R / 197`. -/
theorem entry_rows (c : Dev nD) (R : Fin 25216) (h : Fin 768) :
    (V m c main_v7 : S25216x768.Idx → EReal) (ix2 R h)
      = (m ((c : Thread nD τ).loc main_arg0) : S128x197x768.Idx → EReal)
          (ix3 (⟨R.val / 197, by have := R.isLt; omega⟩ : Fin 128) (⟨R.val % 197, Nat.mod_lt _ (by norm_num)⟩ : Fin 197) h) := by
  rw [v7_term]
  refine shapeCast_apply _ shapeCasts_S128x197x768_S25216x768 _ _ ?_
  rw [Shape.rowMajor_val_three, Shape.rowMajor_val_two]
  show (R.val / 197 * 197 + R.val % 197) * 768 + h.val = R.val * 768 + h.val
  have := Nat.div_add_mod R.val 197
  have e : R.val / 197 * 197 + R.val % 197 = R.val := by omega
  rw [e]

/-- The input shift as the lines before the grid leave it: the argument viewed as one row. -/
theorem v8_term (c : Dev nD) :
    (V m c main_v8 : S1x768.Idx → EReal)
      = shapeCast S1x768 (m ((c : Thread nD τ).loc main_arg3) : S768.Idx → EReal) shapeCasts_S768_S1x768 := by
  show StableHlo.after hostOps0 (fun b => m (c, b)) (Proc.devRef .tc main_v8) = _
  after_results
  rfl

/-- (2) The one row of the input shift reads the argument. -/
theorem entry_shift (c : Dev nD) (h : Fin 768) :
    (V m c main_v8 : S1x768.Idx → EReal) (ix2 (0 : Fin 1) h)
      = (m ((c : Thread nD τ).loc main_arg3) : S768.Idx → EReal) (ix1 h) := by
  rw [v8_term]
  exact shapeCast_a_1a_apply _ shapeCasts_S768_S1x768 (0 : Fin 1) h

/-- The weights' signs as the lines before the grid leave them: the signs of the argument, transposed (the narrowing
    to sixteen bits is the identity on the extended reals). -/
theorem v6_term (c : Dev nD) :
    (V m c main_v6 : FVec Ideal S768x3072 .bf16)
      = truncf (F := Ideal) .bf16 (transpose S768x3072 [1, 0]
          (Host.sign (m ((c : Thread nD τ).loc main_arg1) : FVec Ideal S3072x768 .f32))
          transposes_S3072x768_S768x3072_1_0) bitsLt_bf16_f32 := by
  show StableHlo.after hostOps0 (fun b => m (c, b)) (Proc.devRef .tc main_v6) = _
  after_results

/-- (3) Entry `(h, j)` of the transposed signs is the sign of weight `(j, h)`. -/
theorem entry_signs (c : Dev nD) (h : Fin 768) (j : Fin 3072) :
    (V m c main_v6 : S768x3072.Idx → EReal) (ix2 h j)
      = Ideal.sign ((m ((c : Thread nD τ).loc main_arg1) : S3072x768.Idx → EReal) (ix2 j h)) := by
  rw [v6_term, truncf_apply, transpose_ix2_apply, Ideal.host_sign_eq_sign]

/-! ## The eight stacked rows -/

/-- A vector of 3072 features viewed as one row reads, at `(u, j)`, feature `j`. -/
theorem row_of_vec {α : Type} (x : S3072.Idx → α) (u : Fin 1) (j : Fin 3072) :
    broadcastInDim S1x3072 ![1] bcast_S3072_S1x3072_1 x (ix2 u j) = x (ix1 j) :=
  broadcastInDim_apply _ bcast_S3072_S1x3072_1 x (ix2 u j) (ix1 j) (fun a => match a with
    | ⟨0, _⟩ => by show j.val = if (3072 : Nat) = 1 then 0 else j.val; rw [if_neg (by decide)])

/-- Eight rows stacked: row `k` of the stack is the `k`-th piece. -/
theorem stack8_at {α : Type} (p0 p1 p2 p3 p4 p5 p6 p7 : S1x3072.Idx → α) (k : Fin 8) (j : Fin 3072) :
    concatenate S8x3072 0 [⟨S1x3072, p0⟩, ⟨S1x3072, p1⟩, ⟨S1x3072, p2⟩, ⟨S1x3072, p3⟩, ⟨S1x3072, p4⟩, ⟨S1x3072, p5⟩,
        ⟨S1x3072, p6⟩, ⟨S1x3072, p7⟩]
        concatenates_S1x3072_S1x3072_S1x3072_S1x3072_S1x3072_S1x3072_S1x3072_S1x3072_S8x3072_d0 (ix2 k j)
      = (![p0, p1, p2, p3, p4, p5, p6, p7] k) (ix2 (0 : Fin 1) j) :=
  concatenate_ofFn_unit_apply (t := S8x3072) (s₁ := S1x3072) 0 ![p0, p1, p2, p3, p4, p5, p6, p7]
    concatenates_S1x3072_S1x3072_S1x3072_S1x3072_S1x3072_S1x3072_S1x3072_S1x3072_S8x3072_d0 rfl rfl (ix2 k j) k rfl
    (ix2 (0 : Fin 1) j) (fun b hb => match b with
      | ⟨0, _⟩ => absurd rfl hb
      | ⟨1, _⟩ => rfl)

/-- The table of per-feature rows as the lines before the grid leave it: the six per-feature arguments, the mean
    absolute value of each weight row (the row sums of the absolute values from the zero word, divided by the word
    768), and a zero row, each viewed as one row, stacked. -/
theorem v18_term (c : Dev nD) :
    (V m c main_v18 : S8x3072.Idx → EReal)
      = concatenate S8x3072 0
          [⟨S1x3072, broadcastInDim S1x3072 ![1] bcast_S3072_S1x3072_1 (m ((c : Thread nD τ).loc main_arg2) : S3072.Idx → EReal)⟩,
           ⟨S1x3072, broadcastInDim S1x3072 ![1] bcast_S3072_S1x3072_1 (m ((c : Thread nD τ).loc main_arg4) : S3072.Idx → EReal)⟩,
           ⟨S1x3072, broadcastInDim S1x3072 ![1] bcast_S3072_S1x3072_1 (m ((c : Thread nD τ).loc main_arg5) : S3072.Idx → EReal)⟩,
           ⟨S1x3072, broadcastInDim S1x3072 ![1] bcast_S3072_S1x3072_1 (m ((c : Thread nD τ).loc main_arg6) : S3072.Idx → EReal)⟩,
           ⟨S1x3072, broadcastInDim S1x3072 ![1] bcast_S3072_S1x3072_1 (m ((c : Thread nD τ).loc main_arg7) : S3072.Idx → EReal)⟩,
           ⟨S1x3072, broadcastInDim S1x3072 ![1] bcast_S3072_S1x3072_1 (m ((c : Thread nD τ).loc main_arg8) : S3072.Idx → EReal)⟩,
           ⟨S1x3072, broadcastInDim S1x3072 ![1] bcast_S3072_S1x3072_1
              (Host.divf (F := Ideal) (φ := .f32)
                (Host.reduceAdd (F := Ideal) (Host.absf (m ((c : Thread nD τ).loc main_arg1) : FVec Ideal S3072x768 .f32))
                  (constant (F := Ideal) S_ .f32 0x00000000#32) reducesTo_S3072x768_S3072_d1 h_S_)
                (broadcastInDim S3072 ![] bcast_S_S3072 (constant (F := Ideal) S_ .f32 0x44400000#32)))⟩,
           ⟨S1x3072, broadcastInDim S1x3072 ![1] bcast_S3072_S1x3072_1
              (broadcastInDim S3072 ![] bcast_S_S3072 (constant (F := Ideal) S_ .f32 0x00000000#32))⟩]
          concatenates_S1x3072_S1x3072_S1x3072_S1x3072_S1x3072_S1x3072_S1x3072_S1x3072_S8x3072_d0 := by
  show StableHlo.after hostOps0 (fun b => m (c, b)) (Proc.devRef .tc main_v18) = _
  after_results
  first | done | rfl

/-- (4) Row 0 of the table is the bias. -/
theorem entry_par0 (c : Dev nD) (j : Fin 3072) :
    (V m c main_v18 : S8x3072.Idx → EReal) (ix2 (0 : Fin 8) j)
      = (m ((c : Thread nD τ).loc main_arg2) : S3072.Idx → EReal) (ix1 j) := by
  rw [v18_term]
  refine (stack8_at _ _ _ _ _ _ _ _ (0 : Fin 8) j).trans ?_
  exact row_of_vec _ (0 : Fin 1) j

/-- Row 1 is the normalisation scale. -/
theorem entry_par1 (c : Dev nD) (j : Fin 3072) :
    (V m c main_v18 : S8x3072.Idx → EReal) (ix2 (1 : Fin 8) j)
      = (m ((c : Thread nD τ).loc main_arg4) : S3072.Idx → EReal) (ix1 j) := by
  rw [v18_term]
  refine (stack8_at _ _ _ _ _ _ _ _ (1 : Fin 8) j).trans ?_
  exact row_of_vec _ (0 : Fin 1) j

/-- Row 2 is the normalisation offset. -/
theorem entry_par2 (c : Dev nD) (j : Fin 3072) :
    (V m c main_v18 : S8x3072.Idx → EReal) (ix2 (2 : Fin 8) j)
      = (m ((c : Thread nD τ).loc main_arg5) : S3072.Idx → EReal) (ix1 j) := by
  rw [v18_term]
  refine (stack8_at _ _ _ _ _ _ _ _ (2 : Fin 8) j).trans ?_
  exact row_of_vec _ (0 : Fin 1) j

/-- Row 3 is the first shift. -/
theorem entry_par3 (c : Dev nD) (j : Fin 3072) :
    (V m c main_v18 : S8x3072.Idx → EReal) (ix2 (3 : Fin 8) j)
      = (m ((c : Thread nD τ).loc main_arg6) : S3072.Idx → EReal) (ix1 j) := by
  rw [v18_term]
  refine (stack8_at _ _ _ _ _ _ _ _ (3 : Fin 8) j).trans ?_
  exact row_of_vec _ (0 : Fin 1) j

/-- Row 4 is the rectifier slope. -/
theorem entry_par4 (c : Dev nD) (j : Fin 3072) :
    (V m c main_v18 : S8x3072.Idx → EReal) (ix2 (4 : Fin 8) j)
      = (m ((c : Thread nD τ).loc main_arg7) : S3072.Idx → EReal) (ix1 j) := by
  rw [v18_term]
  refine (stack8_at _ _ _ _ _ _ _ _ (4 : Fin 8) j).trans ?_
  exact row_of_vec _ (0 : Fin 1) j

/-- Row 5 is the second shift. -/
theorem entry_par5 (c : Dev nD) (j : Fin 3072) :
    (V m c main_v18 : S8x3072.Idx → EReal) (ix2 (5 : Fin 8) j)
      = (m ((c : Thread nD τ).loc main_arg8) : S3072.Idx → EReal) (ix1 j) := by
  rw [v18_term]
  refine (stack8_at _ _ _ _ _ _ _ _ (5 : Fin 8) j).trans ?_
  exact row_of_vec _ (0 : Fin 1) j

/-- The row sums of the absolute values of a matrix from the zero word, divided by the word 768: at `j`, the mean
    absolute value of row `j`. -/
theorem scale_at (w : FVec Ideal S3072x768 .f32) (j : Fin 3072) :
    Host.divf (F := Ideal) (φ := .f32)
        (Host.reduceAdd (F := Ideal) (Host.absf w) (constant (F := Ideal) S_ .f32 0x00000000#32)
          reducesTo_S3072x768_S3072_d1 h_S_)
        (broadcastInDim S3072 ![] bcast_S_S3072 (constant (F := Ideal) S_ .f32 0x44400000#32)) (ix1 j)
      = Cert.BinaryDense.mean768 fun h => Cert.BinaryDense.absE (w (ix2 j h)) := by
  have hsum : Host.reduceAdd (F := Ideal) (Host.absf w) (constant (F := Ideal) S_ .f32 0x00000000#32)
      reducesTo_S3072x768_S3072_d1 h_S_ (ix1 j) = ∑ h : Fin 768, Cert.BinaryDense.absE (w (ix2 j h)) := by
    simp only [Host.reduceAdd, Ideal.hostReduceAdd_def]
    rw [Ideal.hostReduceAdd_single reducesTo_S3072x768_S3072_d1 (by decide), constant_apply, Ideal.ofBits_zero_f32,
      zero_add]
    refine Finset.sum_congr rfl fun k _ => ?_
    have e : (by decide : Shape.Reduces S3072x768 [1] S3072).lift (ix1 j) k = ix2 j k :=
      funext fun a => Fin.ext (by match a with | ⟨0, _⟩ => rfl | ⟨1, _⟩ => rfl)
    rw [e]
    rfl
  unfold Cert.BinaryDense.mean768
  show Ideal.div (Host.reduceAdd (F := Ideal) (Host.absf w) (constant (F := Ideal) S_ .f32 0x00000000#32)
      reducesTo_S3072x768_S3072_d1 h_S_ (ix1 j))
    (broadcastInDim S3072 ![] bcast_S_S3072 (constant (F := Ideal) S_ .f32 0x44400000#32) (ix1 j)) = _
  rw [hsum, broadcastInDim_apply _ bcast_S_S3072 _ (ix1 j) ix0 (fun a => a.elim0)]
  rfl

/-- Row 6 of eight stacked rows is the seventh piece. -/
theorem stack8_row6 {α : Type} (p0 p1 p2 p3 p4 p5 p6 p7 : S1x3072.Idx → α) (j : Fin 3072) :
    concatenate S8x3072 0 [⟨S1x3072, p0⟩, ⟨S1x3072, p1⟩, ⟨S1x3072, p2⟩, ⟨S1x3072, p3⟩, ⟨S1x3072, p4⟩, ⟨S1x3072, p5⟩,
        ⟨S1x3072, p6⟩, ⟨S1x3072, p7⟩]
        concatenates_S1x3072_S1x3072_S1x3072_S1x3072_S1x3072_S1x3072_S1x3072_S1x3072_S8x3072_d0 (ix2 (6 : Fin 8) j)
      = p6 (ix2 (0 : Fin 1) j) :=
  stack8_at p0 p1 p2 p3 p4 p5 p6 p7 (6 : Fin 8) j

/-- (5) Row 6 is the mean absolute value of each weight row. -/
theorem entry_par6 (c : Dev nD) (j : Fin 3072) :
    (V m c main_v18 : S8x3072.Idx → EReal) (ix2 (6 : Fin 8) j)
      = Cert.BinaryDense.mean768 fun h =>
          Cert.BinaryDense.absE ((m ((c : Thread nD τ).loc main_arg1) : S3072x768.Idx → EReal) (ix2 j h)) := by
  rw [v18_term]
  refine (stack8_row6 _ _ _ _ _ _ _ _ j).trans ?_
  refine (row_of_vec _ (0 : Fin 1) j).trans ?_
  exact scale_at _ j

end Cert.KernelIdeal.Around

end
-- ==== Proof.PreactLaw.lean ====
/-
  The law that joins the two arrangements of a pre-activation.

  One program multiplies the finished inner product of the signs by the row's scale; the other multiplies every weight
  sign by the scale before the inner product. When the activation signs, the weight signs and the scale are real
  numbers, both are the same real number: a real factor moves across a finite sum of reals. On the extended reals the
  law needs that hypothesis, since multiplication does not distribute over sums that meet an infinity. The three facts
  after the law say that a sign, and the mean absolute value of a row of reals, are real numbers.
-/
import proofs.«124440_j8117488190192_2_alg».proof.Proof.Spec

noncomputable section

namespace Cert.BinaryDense

open Idealize.ShloMosaic

/-- A finite sum of real numbers, taken on the extended reals, is the real sum. -/
theorem coe_finset_sum {ι : Type} (t : Finset ι) (f : ι → ℝ) :
    ((∑ h ∈ t, f h : ℝ) : EReal) = ∑ h ∈ t, (f h : EReal) := by
  classical
  induction t using Finset.induction_on with
  | empty => simp
  | insert a t ha ih => rw [Finset.sum_insert ha, Finset.sum_insert ha, EReal.coe_add, ih]

/-- With real signs, real weight signs and a real scale, scaling the finished inner product is scaling every weight. -/
theorem preactFactored_eq_preactScaled (s : Fin 768 → EReal) (w : Fin 3072 → Fin 768 → EReal) (α b : Fin 3072 → EReal)
    (j : Fin 3072) (hs : ∀ h, ∃ r : ℝ, s h = (r : EReal)) (hw : ∀ h, ∃ r : ℝ, w j h = (r : EReal))
    (hα : ∃ r : ℝ, α j = (r : EReal)) :
    preactFactored s (fun h j => w j h) α b j = preactScaled s w α b j := by
  choose σ hσ using hs
  choose ω hω using hw
  obtain ⟨a, ha⟩ := hα
  unfold preactFactored preactScaled
  refine congrArg (· + b j) ?_
  simp only [hσ, hω, ha, ← EReal.coe_mul, ← coe_finset_sum]
  refine congrArg _ ?_
  rw [Finset.sum_mul]
  exact Finset.sum_congr rfl fun h _ => by ring

/-- The sign of an extended real is a real number: -1 at the bottom, 1 at the top, the real sign in between. -/
theorem sign_real (x : EReal) : ∃ r : ℝ, Ideal.sign x = (r : EReal) := by
  induction x using EReal.rec with
  | bot => exact ⟨-1, rfl⟩
  | top => exact ⟨1, rfl⟩
  | coe r => exact ⟨_, rfl⟩

/-- The larger of two real numbers, taken on the extended reals. -/
theorem coe_max' (x y : ℝ) : max (x : EReal) (y : EReal) = ((max x y : ℝ) : EReal) :=
  (EReal.coe_strictMono.monotone.map_max).symm

/-- The word the row mean divides by denotes the real number 768. -/
theorem word768_eq : word768 = ((768 : ℝ) : EReal) := by
  simp [Ideal.ofBits, Ideal.ieee, -EReal.coe_mul]; norm_num

/-- The mean absolute value of 768 real numbers is a real number. -/
theorem mean768_abs_real (a : Fin 768 → EReal) (ha : ∀ h, ∃ r : ℝ, a h = (r : EReal)) :
    ∃ r : ℝ, mean768 (fun h => absE (a h)) = (r : EReal) := by
  choose ρ hρ using ha
  refine ⟨(∑ h, max (ρ h) (-ρ h)) * (1 / 768), ?_⟩
  unfold mean768 absE
  rw [word768_eq, Ideal.div_coe (by norm_num)]
  simp only [hρ, ← EReal.coe_neg, coe_max', ← coe_finset_sum, ← EReal.coe_mul]

end Cert.BinaryDense

end
-- ==== Proof.FiniteWeights.lean ====
/-
  The weights are real numbers under the precondition.

  The precondition says, array by array, that every entry's absolute value is below +infinity, and joins the nine
  answers by "and". Read at the weight matrix it says |w| < +infinity at every entry, so no entry is an infinity: every
  weight is a real number.
-/
import proofs.«124440_j8117488190192_2_alg».proof.Defs
import proofs.«124440_j8117488190192_2_alg».proof.Proof.Gen.Pre_finite_inputs
import Idealize.ShloMosaic.Lib.ReduceAll
import Idealize.ShloMosaic.Lib.ValueIdx
import Idealize.ShloMosaic.Lib.Pipeline.Value

noncomputable section

namespace Cert.KernelIdeal.Finite

open Idealize.ShloMosaic Idealize.SL.Sem Idealize.ShloMosaic.TcCoe

/-- The scalar shape has one index. -/
instance : Subsingleton Cert.Pre_finite_inputs.S_.Idx := ⟨fun a b => funext fun d => d.elim0⟩

/-- The word the precondition compares against denotes +infinity. -/
theorem word_inf : Ideal.ofBits .f32 0x7F800000#32 = ⊤ := by
  simp [Ideal.ofBits, Ideal.ieee]

/-- An extended real whose absolute value is below +infinity is a real number. -/
theorem real_of_abs_lt_top (x : EReal) (h : max x (-x) < ⊤) : ∃ r : ℝ, x = (r : EReal) := by
  induction x using EReal.rec with
  | bot => simp at h
  | top => simp at h
  | coe r => exact ⟨r, rfl⟩

/-- The comparison "below +infinity" answering 1 says so. -/
theorem lt_top_of_cmp (a : EReal) (h : Ideal.cmp .olt a ⊤ = 1#1) : a < ⊤ := by
  by_contra hn
  simp [Ideal.cmp, hn] at h

open Cert.Pre_finite_inputs in
/-- If the precondition's function answers 1 then every entry of its second argument, the weight matrix, is a real
    number. -/
theorem fn_weights [Cert.Pre_finite_inputs.Facts] (x0 : FVec Ideal S128x197x768 .f32) (x1 : FVec Ideal S3072x768 .f32)
    (x2 : FVec Ideal S3072 .f32) (x3 : FVec Ideal S768 .f32) (x4 x5 x6 x7 x8 : FVec Ideal S3072 .f32)
    (h : fn (F := Ideal) x0 x1 x2 x3 x4 x5 x6 x7 x8 = fun _ => 1#1) (i : S3072x768.Idx) :
    ∃ r : ℝ, x1 i = (r : EReal) := by
  have h0 := congrFun h ValueIdx.ix0
  dsimp only [fn, fn_part1, fn_part2] at h0
  have h7 := (IntOp.andi_eq_one.1 (IntOp.andi_eq_one.1 (IntOp.andi_eq_one.1 (IntOp.andi_eq_one.1
    (IntOp.andi_eq_one.1 (IntOp.andi_eq_one.1 (IntOp.andi_eq_one.1 (IntOp.andi_eq_one.1 h0).1).1).1).1).1).1).1).2
  have hi := Host.reduce_andi_all _ _ _ _ _ h7 i
  rw [ValueIdx.cmpf_apply, broadcastInDim_apply _ _ _ i (fun a => a.elim0) (fun a => a.elim0)] at hi
  change Ideal.cmp .olt (max (x1 i) (-(x1 i))) (Ideal.ofBits .f32 0x7F800000#32) = 1#1 at hi
  rw [word_inf] at hi
  exact real_of_abs_lt_top _ (lt_top_of_cmp _ hi)

/-- Under the kernel's precondition every weight, on every core, is a real number. -/
theorem weights_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S3072x768.Idx) :
    ∃ r : ℝ, (m ((c.tc : Thread Cert.KernelIdeal.nD Cert.KernelIdeal.τ).loc Cert.KernelIdeal.main_arg1) :
      Cert.KernelIdeal.S3072x768.Idx → EReal) i = (r : EReal) :=
  fn_weights _ _ _ _ _ _ _ _ _ (hpre c) i

end Cert.KernelIdeal.Finite

end
-- ==== Proof.KernelIdealFinal.lean ====
/-
  The idealized kernel's result, index by index, in terms of its arguments.

  The 99 blocks of the result array cover its 25216 rows (row `R` lies in block `R / 256`; the last block has the 128
  rows that remain), and every point writes back its block of `resultArr`: the array ends holding `resultArr`. The
  line after the grid reshapes it to 128 × 197 × 3072, so the result at `(p, q, i)` is `resultArr` at row
  `197·p + q`, feature `i`; and the arrays the grid read are, entry by entry, the arguments (the inputs flattened,
  the shift, the weights' signs transposed, the seven parameter rows).
-/
import proofs.«124440_j8117488190192_2_alg».proof.Proof.KernelIdealRun
import proofs.«124440_j8117488190192_2_alg».proof.Proof.KernelIdealEntry
import proofs.«124440_j8117488190192_2_alg».proof.Proof.PreactLaw
import proofs.«124440_j8117488190192_2_alg».proof.Proof.FiniteWeights

set_option maxRecDepth 16384

noncomputable section

namespace Cert.KernelIdeal.Around

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.BinaryDense

variable (m : (ℓ : Loc nD τ sig) → Buf (Elt Ideal) ℓ) (ρ : Dev nD → PrngReg)

/-! ## The blocks cover the array -/

/-- The last block has 128 rows inside the array, every other block 256. -/
theorem xsize_rows : ∀ t : Fin cfg0.N, win0_4.xsize (grid0.coords t) 0 = if t.val = 98 then 128 else 256 :=
  (by decide +kernel : ∀ t : Fin grid0.N, _)

/-- An index of the result array is in point `t`'s block iff each coordinate is within the block's part inside the
    array. -/
theorem mem_block (t : Fin cfg0.N) (i : S25216x3072.Idx) :
    i ∈ (win0_4.blk t).view.set ↔ ∀ a, win0_4.index t a * win0_4.size a ≤ (i a : Nat)
      ∧ (i a : Nat) < win0_4.index t a * win0_4.size a + win0_4.xsize (grid0.coords t) a := by
  show i ∈ ((View.whole main_v19).slice (win0_4.rect t)).set ↔ _
  rw [View.set_slice_whole, Rect.mem_set_unit]

/-- Every index of the result array is in the block of the point its row falls in. -/
theorem cover (i : S25216x3072.Idx) : ∃ t : Fin cfg0.N, (cfg0.win 4).flush t = true ∧ i ∈ ((cfg0.win 4).blk t).view.set := by
  have hR : (i 0).val < 25216 := (i 0).isLt
  have hC : (i 1).val < 3072 := (i 1).isLt
  have ht : (i 0).val / 256 < cfg0.N := by show (i 0).val / 256 < 99; omega
  refine ⟨⟨(i 0).val / 256, ht⟩, flush0_4 _, ?_⟩
  show i ∈ (win0_4.blk ⟨(i 0).val / 256, ht⟩).view.set
  rw [mem_block]
  obtain ⟨-, -, hi0, hi1, -⟩ := idx_facts ⟨(i 0).val / 256, ht⟩
  obtain ⟨-, -, hx4, -, -⟩ := xsize_facts ⟨(i 0).val / 256, ht⟩
  have hx := xsize_rows ⟨(i 0).val / 256, ht⟩
  intro a
  match a with
  | ⟨0, _⟩ =>
    show win0_4.index ⟨(i 0).val / 256, ht⟩ 0 * 256 ≤ (i 0).val
      ∧ (i 0).val < win0_4.index ⟨(i 0).val / 256, ht⟩ 0 * 256 + win0_4.xsize (grid0.coords ⟨(i 0).val / 256, ht⟩) 0
    rw [hi0, hx]
    show (i 0).val / 256 * 256 ≤ (i 0).val ∧ (i 0).val < (i 0).val / 256 * 256 + (if (i 0).val / 256 = 98 then 128 else 256)
    split <;> omega
  | ⟨1, _⟩ =>
    show win0_4.index ⟨(i 0).val / 256, ht⟩ 1 * 3072 ≤ (i 1).val
      ∧ (i 1).val < win0_4.index ⟨(i 0).val / 256, ht⟩ 1 * 3072 + win0_4.xsize (grid0.coords ⟨(i 0).val / 256, ht⟩) 1
    rw [hi1, hx4]
    omega

/-- The result array after the grid is `resultArr`. -/
theorem final_result (c : Dev nD) : (dats m 0 c).arrAt 4 cfg0.N = resultArr m c :=
  (dats m 0 c).arrAt_eq_of_cover 4 (resultArr m c)
    (fun t _ => by
      show (cfg0.win 4).cut (cfg0.grid.coords t) ((dats m 0 c).after 4 t) = _
      rw [after4, (cfg0.win 4).cut_fill])
    cover

/-! ## The line after the grid -/

/-- The reshaped result after the last line: the result array's contents, re-indexed. -/
theorem reshaped_result (c : Dev nD) :
    (Pipeline.afterTail₀ cfgs (dats m) 0 (V0 m) [hostOps1] c main_v20 : S128x197x3072.Idx → EReal)
      = shapeCast S128x197x3072 (resultArr m c) shapeCasts_S25216x3072_S128x197x3072 := by
  unfold Pipeline.afterTail₀
  show StableHlo.after hostOps1 _ (Proc.devRef .tc main_v20) = _
  after_results
  have e : Pipeline.withArrays (cfgs 0).spec c (V0 m c) (fun w => (dats m 0 c).arrAt w (cfgs 0).N) (Proc.devRef .tc main_v19)
      = resultArr m c :=
    (Pipeline.withArrays_arr spec0 launch0.win.arr_inj c _ _ 4).trans (final_result m c)
  rw [e]
  rfl

/-- The result at token `(p, q)`, feature `i`, is the result array at row `197·p + q`. -/
theorem result_at (c : Dev nD) (p : Fin 128) (q : Fin 197) (i : Fin 3072) :
    (Pipeline.afterTail₀ cfgs (dats m) 0 (V0 m) [hostOps1] c main_v20 : S128x197x3072.Idx → EReal) (ix3 p q i)
      = resultArr m c (ix2 (⟨p.val * 197 + q.val, by have := p.isLt; have := q.isLt; omega⟩ : Fin 25216) i) := by
  rw [reshaped_result]
  refine shapeCast_apply (resultArr m c) shapeCasts_S25216x3072_S128x197x3072 _ _ ?_
  rw [Shape.rowMajor_val_three, Shape.rowMajor_val_two]
  show (p.val * 197 + q.val) * 3072 + i.val = (p.val * 197 + q.val) * 3072 + i.val
  rfl

/-! ## In terms of the arguments -/

/-- The nine arguments as launched, at their array types. -/
abbrev arg0 (c : Dev nD) : S128x197x768.Idx → EReal := m ((c : Thread nD τ).loc main_arg0)
abbrev arg1 (c : Dev nD) : S3072x768.Idx → EReal := m ((c : Thread nD τ).loc main_arg1)
abbrev arg2 (c : Dev nD) : S3072.Idx → EReal := m ((c : Thread nD τ).loc main_arg2)
abbrev arg3 (c : Dev nD) : S768.Idx → EReal := m ((c : Thread nD τ).loc main_arg3)
abbrev arg4 (c : Dev nD) : S3072.Idx → EReal := m ((c : Thread nD τ).loc main_arg4)
abbrev arg5 (c : Dev nD) : S3072.Idx → EReal := m ((c : Thread nD τ).loc main_arg5)
abbrev arg6 (c : Dev nD) : S3072.Idx → EReal := m ((c : Thread nD τ).loc main_arg6)
abbrev arg7 (c : Dev nD) : S3072.Idx → EReal := m ((c : Thread nD τ).loc main_arg7)
abbrev arg8 (c : Dev nD) : S3072.Idx → EReal := m ((c : Thread nD τ).loc main_arg8)

/-- The result array at row `R`, feature `i`, written out. -/
theorem resultArr_at (c : Dev nD) (R : Fin 25216) (i : Fin 3072) :
    resultArr m c (ix2 R i)
      = rowOut (preactFactored (fun h => Ideal.sign (inRows m c (ix2 R h) + inShift m c (ix2 (0 : Fin 1) h)))
            (fun h j => inSigns m c (ix2 h j)) (fun j => inPars m c (ix2 (6 : Fin 8) j)) (fun j => inPars m c (ix2 (0 : Fin 8) j)))
          (fun h => inRows m c (ix2 R h)) (fun j => inPars m c (ix2 (1 : Fin 8) j)) (fun j => inPars m c (ix2 (2 : Fin 8) j))
          (fun j => inPars m c (ix2 (3 : Fin 8) j)) (fun j => inPars m c (ix2 (4 : Fin 8) j)) (fun j => inPars m c (ix2 (5 : Fin 8) j)) i := rfl

/-- Row `197·p + q` of the flattened inputs is token `(p, q)`. -/
theorem rows_token (c : Dev nD) (p : Fin 128) (q : Fin 197) (hR : p.val * 197 + q.val < 25216) (h : Fin 768) :
    inRows m c (ix2 (⟨p.val * 197 + q.val, hR⟩ : Fin 25216) h) = arg0 m c (ix3 p q h) := by
  refine (entry_rows m c ⟨p.val * 197 + q.val, hR⟩ h).trans ?_
  have hp : (⟨(p.val * 197 + q.val) / 197, by have := q.isLt; have := p.isLt; omega⟩ : Fin 128) = p :=
    Fin.ext (by show (p.val * 197 + q.val) / 197 = p.val; have := q.isLt; omega)
  have hq : (⟨(p.val * 197 + q.val) % 197, Nat.mod_lt _ (by norm_num)⟩ : Fin 197) = q :=
    Fin.ext (by show (p.val * 197 + q.val) % 197 = q.val; have := q.isLt; omega)
  show arg0 m c (ix3 ⟨(p.val * 197 + q.val) / 197, _⟩ ⟨(p.val * 197 + q.val) % 197, _⟩ h) = _
  rw [hp, hq]

/-- THE IDEALIZED KERNEL'S RESULT at token `(p, q)`, feature `i`, under the precondition: the specification's row
    result of the token's pre-activations in the arrangement that scales every weight first. The kernel scales the
    finished inner product instead; the two agree because the signs, and — the weights being real under the
    precondition — the rows' mean absolute values, are real numbers. -/
theorem kernel_result_at [hP : Cert.Pre_finite_inputs.Facts] (hpre : Cert.Pre_KernelIdeal m) (c : Dev nD)
    (p : Fin 128) (q : Fin 197) (i : Fin 3072) :
    (Pipeline.afterTail₀ cfgs (dats m) 0 (V0 m) [hostOps1] c main_v20 : S128x197x3072.Idx → EReal) (ix3 p q i)
      = rowOut
          (preactScaled (fun h => Ideal.sign (arg0 m c (ix3 p q h) + arg3 m c (ix1 h)))
            (fun j h => Ideal.sign (arg1 m c (ix2 j h)))
            (fun j => mean768 fun h => absE (arg1 m c (ix2 j h))) (fun j => arg2 m c (ix1 j)))
          (fun h => arg0 m c (ix3 p q h)) (fun j => arg4 m c (ix1 j)) (fun j => arg5 m c (ix1 j)) (fun j => arg6 m c (ix1 j))
          (fun j => arg7 m c (ix1 j)) (fun j => arg8 m c (ix1 j)) i := by
  have hR : p.val * 197 + q.val < 25216 := by have := p.isLt; have := q.isLt; omega
  rw [result_at, resultArr_at]
  have e1 : (fun h => Ideal.sign (inRows m c (ix2 (⟨p.val * 197 + q.val, hR⟩ : Fin 25216) h) + inShift m c (ix2 (0 : Fin 1) h)))
      = fun h => Ideal.sign (arg0 m c (ix3 p q h) + arg3 m c (ix1 h)) :=
    funext fun h => by rw [rows_token m c p q hR h, show inShift m c (ix2 (0 : Fin 1) h) = _ from entry_shift m c h]
  have e2 : (fun h j => inSigns m c (ix2 h j)) = fun h j => Ideal.sign (arg1 m c (ix2 j h)) :=
    funext fun h => funext fun j => entry_signs m c h j
  have e3 : (fun h => inRows m c (ix2 (⟨p.val * 197 + q.val, hR⟩ : Fin 25216) h)) = fun h => arg0 m c (ix3 p q h) :=
    funext fun h => rows_token m c p q hR h
  have p0 : (fun j => inPars m c (ix2 (0 : Fin 8) j)) = fun j => arg2 m c (ix1 j) := funext fun j => entry_par0 m c j
  have p1 : (fun j => inPars m c (ix2 (1 : Fin 8) j)) = fun j => arg4 m c (ix1 j) := funext fun j => entry_par1 m c j
  have p2 : (fun j => inPars m c (ix2 (2 : Fin 8) j)) = fun j => arg5 m c (ix1 j) := funext fun j => entry_par2 m c j
  have p3 : (fun j => inPars m c (ix2 (3 : Fin 8) j)) = fun j => arg6 m c (ix1 j) := funext fun j => entry_par3 m c j
  have p4 : (fun j => inPars m c (ix2 (4 : Fin 8) j)) = fun j => arg7 m c (ix1 j) := funext fun j => entry_par4 m c j
  have p5 : (fun j => inPars m c (ix2 (5 : Fin 8) j)) = fun j => arg8 m c (ix1 j) := funext fun j => entry_par5 m c j
  have p6 : (fun j => inPars m c (ix2 (6 : Fin 8) j)) = fun j => mean768 fun h => absE (arg1 m c (ix2 j h)) :=
    funext fun j => entry_par6 m c j
  rw [e1, e2, e3, p0, p1, p2, p3, p4, p5, p6]
  have law : preactFactored (fun h => Ideal.sign (arg0 m c (ix3 p q h) + arg3 m c (ix1 h)))
        (fun h j => Ideal.sign (arg1 m c (ix2 j h)))
        (fun j => mean768 fun h => absE (arg1 m c (ix2 j h))) (fun j => arg2 m c (ix1 j))
      = preactScaled (fun h => Ideal.sign (arg0 m c (ix3 p q h) + arg3 m c (ix1 h)))
        (fun j h => Ideal.sign (arg1 m c (ix2 j h)))
        (fun j => mean768 fun h => absE (arg1 m c (ix2 j h))) (fun j => arg2 m c (ix1 j)) :=
    funext fun j => preactFactored_eq_preactScaled _ (fun j h => Ideal.sign (arg1 m c (ix2 j h))) _ _ j
      (fun h => sign_real _) (fun h => sign_real _)
      (mean768_abs_real _ fun h => Cert.KernelIdeal.Finite.weights_real m hpre c (ix2 j h))
  rw [law]

end Cert.KernelIdeal.Around

end
-- ==== Proof.ReferenceRow.lean ====
/-
  The reference program's result read at one position: token (p, q), feature i.

  Every operation of the reference reads its operands at an index, so the last stage at (p, q, i) unfolds, stage by
  stage, to the shared specification's `rowOut` of the token's pre-activations, inputs and the per-feature parameters.
  The reference writes each sign through a straight-through estimator, c + (sign x - c) with c the value clipped to
  [-1, 1]; the clipped value is a real number, so the sum is the sign itself on the extended reals.
-/
import proofs.«124440_j8117488190192_2_alg».proof.Proof.Gen.ReferenceIdeal.Read
import proofs.«124440_j8117488190192_2_alg».proof.Proof.Spec
import Idealize.ShloMosaic.Lib.ValueIdx
import Idealize.ShloMosaic.Lib.Pipeline.Value
import Idealize.ShloMosaic.PureOps.Ideal.Laws

noncomputable section

namespace Cert.ReferenceIdeal.RowValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open Cert.BinaryDense

/-! ## The straight-through estimator on the extended reals -/

/-- The two words the clip compares against denote 1 and -1. -/
theorem word_one : Ideal.ofBits .f32 0x3F800000#32 = 1 := IdealRules.sign_bit.ideal_onePat .f32
theorem word_negOne : Ideal.ofBits .f32 0xBF800000#32 = -1 := IdealRules.sign_bit.ideal_negOnePat .f32

/-- A value clipped to [-1, 1] is a real number. -/
theorem clip_real (x : EReal) : ∃ r : ℝ, min (1 : EReal) (max (-1) x) = r := by
  have h1 : min (1 : EReal) (max (-1) x) ≠ ⊤ :=
    ne_top_of_le_ne_top (EReal.coe_ne_top 1) (min_le_left _ _)
  have h2 : min (1 : EReal) (max (-1) x) ≠ ⊥ :=
    ne_bot_of_le_ne_bot (EReal.coe_ne_bot (-1)) (le_min (by exact_mod_cast (by norm_num : (-1 : ℝ) ≤ 1)) (le_max_left _ _))
  exact ⟨_, (EReal.coe_toReal h1 h2).symm⟩

/-- The sign of an extended real is a real number. -/
theorem sign_is_real (x : EReal) : ∃ s : ℝ, Ideal.sign x = s := by
  induction x using EReal.rec with
  | bot => exact ⟨-1, rfl⟩
  | top => exact ⟨1, rfl⟩
  | coe r => exact ⟨_, rfl⟩

/-- c + (sign x - c) = sign x when c is the clipped value. -/
theorem ste (x : EReal) :
    min (1 : EReal) (max (-1) x) + (Ideal.sign x - min (1 : EReal) (max (-1) x)) = Ideal.sign x := by
  obtain ⟨r, hr⟩ := clip_real x
  obtain ⟨s, hs⟩ := sign_is_real x
  rw [hr, hs, ← EReal.coe_sub, ← EReal.coe_add]
  exact congrArg _ (by ring)

variable (a0 : (⟨S128x197x768, .f32⟩ : BufTy).Contents (Elt Ideal)) (a1 : (⟨S3072x768, .f32⟩ : BufTy).Contents (Elt Ideal))
  (a2 : (⟨S3072, .f32⟩ : BufTy).Contents (Elt Ideal)) (a3 : (⟨S768, .f32⟩ : BufTy).Contents (Elt Ideal))
  (a4 a5 a6 a7 a8 : (⟨S3072, .f32⟩ : BufTy).Contents (Elt Ideal))

/-! ## The weights: their signs and their rows' mean absolute values -/

/-- The binarised weight at (j, h) is the sign of the weight. -/
theorem weight_sign (j : Fin 3072) (h : Fin 768) :
    val_main_v8 (F := Ideal) a1 (ix2 j h) = Ideal.sign (a1 (ix2 j h)) := by
  rw [val_main_v8_apply, val_main_v7_apply, val_main_v6_apply, val_main_v5_apply, val_main_call0_v2_apply,
    val_main_call0_v4_apply, val_main_call0_v3_apply, val_main_cst_2_apply, val_main_call0_v1_apply,
    val_main_call0_v0_apply, val_main_cst_1_apply]
  simp only [Ideal.addf_def, Ideal.subf_def, Ideal.minimumf_def, Ideal.maximumf_def, Ideal.hostUnary_sign_def,
    Ideal.ofBits_def, word_one, word_negOne]
  exact ste _

/-- The mean absolute value of weight row j, as the reference computes it. -/
theorem weight_scale (j : Fin 3072) (z : Fin 1) :
    val_main_v4 (F := Ideal) a1 (ix2 j z) = mean768 fun h => absE (a1 (ix2 j h)) := by
  have e : ∀ k : Fin 768, idx_main_v1 (idx_main_v2 (ix2 j z)) k = ix2 j k := fun k =>
    funext fun a => Fin.ext (by match a with | ⟨0, _⟩ => rfl | ⟨1, _⟩ => rfl)
  rw [val_main_v4_apply, val_main_v2_apply, val_main_v3_apply, val_main_cst_0_apply, val_main_v1_apply,
    val_main_cst_apply]
  simp only [e, val_main_v0_apply, Ideal.hostDivf_def, Ideal.hostAbsf_def, Ideal.absf_def, Ideal.ofBits_def,
    Ideal.ofBits_zero_f32, zero_add]
  rfl

/-- The scaled binarised weight at (j, h). -/
theorem weight_scaled (j : Fin 3072) (h : Fin 768) :
    val_main_v10 (F := Ideal) a1 (ix2 j h)
      = (mean768 fun h => absE (a1 (ix2 j h))) * Ideal.sign (a1 (ix2 j h)) := by
  have e : idx_main_v9 (ix2 j h) = ix2 j (0 : Fin 1) :=
    funext fun a => Fin.ext (by match a with | ⟨0, _⟩ => rfl | ⟨1, _⟩ => rfl)
  rw [val_main_v10_apply, val_main_v9_apply, e, weight_scale, weight_sign]
  rfl

/-! ## The activations -/

/-- The binarised activation at (p, q, h) is the sign of the shifted input. -/
theorem act_sign (p : Fin 128) (q : Fin 197) (h : Fin 768) :
    val_main_v17 (F := Ideal) a0 a3 (ix3 p q h) = Ideal.sign (a0 (ix3 p q h) + a3 (ix1 h)) := by
  have e : idx_main_v11 (idx_main_v12 (ix3 p q h)) = ix1 h :=
    funext fun a => Fin.ext (by match a with | ⟨0, _⟩ => rfl)
  rw [val_main_v17_apply, val_main_v16_apply, val_main_v15_apply, val_main_v14_apply, val_main_call1_v2_apply,
    val_main_call1_v4_apply, val_main_call1_v3_apply, val_main_cst_4_apply, val_main_call1_v1_apply,
    val_main_call1_v0_apply, val_main_cst_3_apply, val_main_v13_apply, val_main_v12_apply, val_main_v11_apply, e]
  simp only [Ideal.addf_def, Ideal.subf_def, Ideal.minimumf_def, Ideal.maximumf_def, Ideal.hostUnary_sign_def,
    Ideal.ofBits_def, word_one, word_negOne]
  exact ste _

/-! ## The pre-activations -/

/-- Pre-activation j of token (p, q): the inner product of the binarised activations with the scaled binarised weight
    row, plus the bias. -/
theorem preact (p : Fin 128) (q : Fin 197) (j : Fin 3072) :
    val_main_v21 (F := Ideal) a0 a1 a2 a3 (ix3 p q j)
      = preactScaled (fun h => Ideal.sign (a0 (ix3 p q h) + a3 (ix1 h))) (fun j h => Ideal.sign (a1 (ix2 j h)))
        (fun j => mean768 fun h => absE (a1 (ix2 j h))) (fun j => a2 (ix1 j)) j := by
  have el : ∀ k : Fin 768, lidx_main_v18 (ix3 p q j) k = ix3 p q k := fun k =>
    funext fun a => Fin.ext (by match a with | ⟨0, _⟩ => rfl | ⟨1, _⟩ => rfl | ⟨2, _⟩ => rfl)
  have er : ∀ k : Fin 768, ridx_main_v18 (ix3 p q j) k = ix2 j k := fun k =>
    funext fun a => Fin.ext (by match a with | ⟨0, _⟩ => rfl | ⟨1, _⟩ => rfl)
  have eb : idx_main_v19 (idx_main_v20 (ix3 p q j)) = ix1 j :=
    funext fun a => Fin.ext (by match a with | ⟨0, _⟩ => rfl)
  rw [val_main_v21_apply, val_main_v18_apply, val_main_v20_apply, val_main_v19_apply, eb]
  simp only [el, er, act_sign, weight_scaled]
  rfl

/-! ## The normalisation over the 3072 features -/

/-- The mean of token (p, q)'s pre-activations. -/
theorem mean_at (p : Fin 128) (q : Fin 197) (z : Fin 1) :
    val_main_v25 (F := Ideal) a0 a1 a2 a3 (ix3 p q z)
      = mean3072 fun j => val_main_v21 (F := Ideal) a0 a1 a2 a3 (ix3 p q j) := by
  have e : ∀ k : Fin 3072, idx_main_v22 (idx_main_v23 (ix3 p q z)) k = ix3 p q k := fun k =>
    funext fun a => Fin.ext (by match a with | ⟨0, _⟩ => rfl | ⟨1, _⟩ => rfl | ⟨2, _⟩ => rfl)
  rw [val_main_v25_apply, val_main_v23_apply, val_main_v24_apply, val_main_cst_6_apply, val_main_v22_apply,
    val_main_cst_5_apply]
  simp only [e, Ideal.hostDivf_def, Ideal.ofBits_def, Ideal.ofBits_zero_f32, zero_add]
  rfl

/-- The deviation of pre-activation j from the mean (the copy the variance squares). -/
theorem centred_at (p : Fin 128) (q : Fin 197) (j : Fin 3072) :
    val_main_v27 (F := Ideal) a0 a1 a2 a3 (ix3 p q j)
      = centred (fun j => val_main_v21 (F := Ideal) a0 a1 a2 a3 (ix3 p q j)) j := by
  have e : idx_main_v26 (ix3 p q j) = ix3 p q (0 : Fin 1) :=
    funext fun a => Fin.ext (by match a with | ⟨0, _⟩ => rfl | ⟨1, _⟩ => rfl | ⟨2, _⟩ => rfl)
  rw [val_main_v27_apply, val_main_v26_apply, e, mean_at]
  rfl

/-- The deviation of pre-activation j from the mean (the copy the normalisation scales). -/
theorem centred_at' (p : Fin 128) (q : Fin 197) (j : Fin 3072) :
    val_main_v34 (F := Ideal) a0 a1 a2 a3 (ix3 p q j)
      = centred (fun j => val_main_v21 (F := Ideal) a0 a1 a2 a3 (ix3 p q j)) j := by
  have e : idx_main_v33 (ix3 p q j) = ix3 p q (0 : Fin 1) :=
    funext fun a => Fin.ext (by match a with | ⟨0, _⟩ => rfl | ⟨1, _⟩ => rfl | ⟨2, _⟩ => rfl)
  rw [val_main_v34_apply, val_main_v33_apply, e, mean_at]
  rfl

/-- The variance of token (p, q)'s pre-activations. -/
theorem variance_at (p : Fin 128) (q : Fin 197) (z : Fin 1) :
    val_main_v32 (F := Ideal) a0 a1 a2 a3 (ix3 p q z)
      = variance fun j => val_main_v21 (F := Ideal) a0 a1 a2 a3 (ix3 p q j) := by
  have e : ∀ k : Fin 3072, idx_main_v29 (idx_main_v30 (ix3 p q z)) k = ix3 p q k := fun k =>
    funext fun a => Fin.ext (by match a with | ⟨0, _⟩ => rfl | ⟨1, _⟩ => rfl | ⟨2, _⟩ => rfl)
  rw [val_main_v32_apply, val_main_v30_apply, val_main_v31_apply, val_main_cst_8_apply, val_main_v29_apply,
    val_main_cst_7_apply]
  simp only [e, val_main_v28_apply, centred_at, Ideal.hostDivf_def, Ideal.mulf_def, Ideal.ofBits_def,
    Ideal.ofBits_zero_f32, zero_add]
  rfl

/-- The normalised pre-activation i of token (p, q). -/
theorem normalised_at (p : Fin 128) (q : Fin 197) (i : Fin 3072) :
    val_main_v39 (F := Ideal) a0 a1 a2 a3 (ix3 p q i)
      = normalised (fun j => val_main_v21 (F := Ideal) a0 a1 a2 a3 (ix3 p q j)) i := by
  have e : idx_main_v38 (ix3 p q i) = ix3 p q (0 : Fin 1) :=
    funext fun a => Fin.ext (by match a with | ⟨0, _⟩ => rfl | ⟨1, _⟩ => rfl | ⟨2, _⟩ => rfl)
  rw [val_main_v39_apply, val_main_v38_apply, e, val_main_v37_apply, val_main_v36_apply, val_main_v35_apply,
    val_main_cst_9_apply, centred_at', variance_at]
  rfl

/-! ## The residual, the parameters and the result -/

/-- The four-fold repetition of the token's inputs at feature i reads input i mod 768. -/
theorem residual_at (p : Fin 128) (q : Fin 197) (i : Fin 3072) :
    val_main_v46 (F := Ideal) a0 (ix3 p q i) = a0 (ix3 p q (wrap i)) := by
  unfold val_main_v46
  exact concatenate_replicate_apply (t := S128x197x3072) (s₁ := S128x197x768) 2 4 a0 _ rfl (ix3 p q i)
    (ix3 p q (wrap i)) rfl (fun b => by
      match b with
      | ⟨0, _⟩ => exact fun _ => rfl
      | ⟨1, _⟩ => exact fun _ => rfl
      | ⟨2, _⟩ => exact fun hb => absurd rfl hb)

/-- A per-feature parameter broadcast over the tokens reads its feature. -/
theorem param_index (p : Fin 128) (q : Fin 197) (i : Fin 3072) :
    idx_main_v40 (idx_main_v41 (ix3 p q i)) = ix1 i :=
  funext fun a => Fin.ext (by match a with | ⟨0, _⟩ => rfl)

/-- The reference's result at token (p, q), feature i, is the specification's row result of the token's
    pre-activations, its inputs and the per-feature parameters. -/
theorem reference_at (p : Fin 128) (q : Fin 197) (i : Fin 3072) :
    val_main_v59 (F := Ideal) a0 a1 a2 a3 a4 a5 a6 a7 a8 (ix3 p q i)
      = rowOut
          (preactScaled (fun h => Ideal.sign (a0 (ix3 p q h) + a3 (ix1 h))) (fun j h => Ideal.sign (a1 (ix2 j h)))
        (fun j => mean768 fun h => absE (a1 (ix2 j h))) (fun j => a2 (ix1 j)))
          (fun h => a0 (ix3 p q h)) (fun j => a4 (ix1 j)) (fun j => a5 (ix1 j)) (fun j => a6 (ix1 j))
          (fun j => a7 (ix1 j)) (fun j => a8 (ix1 j)) i := by
  have hy : (fun j => val_main_v21 (F := Ideal) a0 a1 a2 a3 (ix3 p q j))
      = preactScaled (fun h => Ideal.sign (a0 (ix3 p q h) + a3 (ix1 h))) (fun j h => Ideal.sign (a1 (ix2 j h)))
        (fun j => mean768 fun h => absE (a1 (ix2 j h))) (fun j => a2 (ix1 j)) := funext fun j => preact a0 a1 a2 a3 p q j
  have e4 : idx_main_v40 (idx_main_v41 (ix3 p q i)) = ix1 i := param_index p q i
  have e5 : idx_main_v43 (idx_main_v44 (ix3 p q i)) = ix1 i := param_index p q i
  have e6 : idx_main_v48 (idx_main_v49 (ix3 p q i)) = ix1 i := param_index p q i
  have e7 : idx_main_v53 (idx_main_v54 (ix3 p q i)) = ix1 i := param_index p q i
  have e8 : idx_main_v57 (idx_main_v58 (ix3 p q i)) = ix1 i := param_index p q i
  rw [val_main_v59_apply, val_main_v58_apply, val_main_v57_apply, e8, val_main_v56_apply, val_main_v55_apply,
    val_main_v54_apply, val_main_v53_apply, e7, val_main_v52_apply, val_main_v51_apply, val_main_cst_10_apply,
    val_main_v50_apply, val_main_v49_apply, val_main_v48_apply, e6, val_main_v47_apply, residual_at,
    val_main_v45_apply, val_main_v44_apply, val_main_v43_apply, e5, val_main_v42_apply, val_main_v41_apply,
    val_main_v40_apply, e4, normalised_at, hy]
  rfl

/-! ## The run's result term -/

section Run

variable (m : (ℓ : Loc nD τ sig) → Buf (Elt Ideal) ℓ) (c : Dev nD)

/-- The launch contents of the nine arguments on core c, at their array types. -/
abbrev arg0 : (⟨S128x197x768, .f32⟩ : BufTy).Contents (Elt Ideal) := m ((c.tc : Thread nD τ).loc main_arg0)
abbrev arg1 : (⟨S3072x768, .f32⟩ : BufTy).Contents (Elt Ideal) := m ((c.tc : Thread nD τ).loc main_arg1)
abbrev arg2 : (⟨S3072, .f32⟩ : BufTy).Contents (Elt Ideal) := m ((c.tc : Thread nD τ).loc main_arg2)
abbrev arg3 : (⟨S768, .f32⟩ : BufTy).Contents (Elt Ideal) := m ((c.tc : Thread nD τ).loc main_arg3)
abbrev arg4 : (⟨S3072, .f32⟩ : BufTy).Contents (Elt Ideal) := m ((c.tc : Thread nD τ).loc main_arg4)
abbrev arg5 : (⟨S3072, .f32⟩ : BufTy).Contents (Elt Ideal) := m ((c.tc : Thread nD τ).loc main_arg5)
abbrev arg6 : (⟨S3072, .f32⟩ : BufTy).Contents (Elt Ideal) := m ((c.tc : Thread nD τ).loc main_arg6)
abbrev arg7 : (⟨S3072, .f32⟩ : BufTy).Contents (Elt Ideal) := m ((c.tc : Thread nD τ).loc main_arg7)
abbrev arg8 : (⟨S3072, .f32⟩ : BufTy).Contents (Elt Ideal) := m ((c.tc : Thread nD τ).loc main_arg8)

/-- The run's result term at (p, q, i): the same function of the launch contents of the nine arguments. -/
theorem reference_run_at (p : Fin 128) (q : Fin 197) (i : Fin 3072) :
    (Cert.ReferenceIdeal.Value.res_main_v59 (F := Ideal) m c : (⟨S128x197x3072, .f32⟩ : BufTy).Contents (Elt Ideal))
        (ix3 p q i)
      = rowOut
          (preactScaled (fun h => Ideal.sign (arg0 m c (ix3 p q h) + arg3 m c (ix1 h)))
            (fun j h => Ideal.sign (arg1 m c (ix2 j h)))
            (fun j => mean768 fun h => absE (arg1 m c (ix2 j h))) (fun j => arg2 m c (ix1 j)))
          (fun h => arg0 m c (ix3 p q h)) (fun j => arg4 m c (ix1 j)) (fun j => arg5 m c (ix1 j))
          (fun j => arg6 m c (ix1 j)) (fun j => arg7 m c (ix1 j)) (fun j => arg8 m c (ix1 j)) i := by
  rw [val_main_v59_eq]
  exact reference_at _ _ _ _ _ _ _ _ _ p q i

end Run

end Cert.ReferenceIdeal.RowValue

end
-- ==== Proof.lean ====
/-
  The five claims about the binary dense layer with layer normalisation, residual and leaky rectifier.

  The kernel flattens the 128 × 197 tokens to 25216 rows and computes the result 256 rows at a time; the reference
  computes it in one piece. At the ideal values both results are, token by token, the specification's row result
  (Proof/Spec.lean): the kernel's because each block of its result array is the row function of its rows
  (Proof/KernelIdealRun.lean, Proof/KernelIdealFinal.lean), the reference's by reading its operations one at a time
  (Proof/ReferenceRow.lean). The kernel multiplies each finished inner product by the weight row's mean absolute value
  where the reference multiplies every weight sign first; under the precondition the weights are real, so the mean is a
  real number and moves across the sum (Proof/PreactLaw.lean, Proof/FiniteWeights.lean). The frames: each program
  writes buffers of its own only (Proof/KernelFrame.lean for the kernel as printed; the idealized kernel's and the
  reference's runs below also leave the arguments as launched). The one rewrite of the idealization, reading 1.0 with
  a value's sign bit as the choice between -1 and 1 by comparing with zero, is the sign-bit rule's own statement.
-/
import proofs.«124440_j8117488190192_2_alg».proof.Defs
import proofs.«124440_j8117488190192_2_alg».proof.Proof.KernelFrame
import proofs.«124440_j8117488190192_2_alg».proof.Proof.KernelIdealFinal
import proofs.«124440_j8117488190192_2_alg».proof.Proof.ReferenceRow
import proofs.«124440_j8117488190192_2_alg».proof.Proof.Gen.Kernel
import proofs.«124440_j8117488190192_2_alg».proof.Proof.Gen.KernelIdeal
import proofs.«124440_j8117488190192_2_alg».proof.Proof.Gen.ReferenceIdeal
import proofs.«124440_j8117488190192_2_alg».proof.Proof.Gen.ReferenceIdeal.Run
import proofs.«124440_j8117488190192_2_alg».proof.Proof.Gen.ReferenceIdeal.Read
import proofs.«124440_j8117488190192_2_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.BinaryDense

/-- The result both programs end with, as one function of the nine arguments: at token `(p, q)`, feature `i`, the row
    result of the token's pre-activations (every weight sign scaled by its row's mean absolute value), its inputs and
    the per-feature parameters. -/
def specOut (a0 : Cert.KernelIdeal.S128x197x768.Idx → EReal) (a1 : Cert.KernelIdeal.S3072x768.Idx → EReal)
    (a2 : Cert.KernelIdeal.S3072.Idx → EReal) (a3 : Cert.KernelIdeal.S768.Idx → EReal)
    (a4 a5 a6 a7 a8 : Cert.KernelIdeal.S3072.Idx → EReal) : Cert.KernelIdeal.S128x197x3072.Idx → EReal := fun J =>
  rowOut
    (preactScaled (fun h => Ideal.sign (a0 (ix3 (n0 := 128) (n1 := 197) (J 0) (J 1) h) + a3 (ix1 h))) (fun j h => Ideal.sign (a1 (ix2 j h)))
      (fun j => mean768 fun h => absE (a1 (ix2 j h))) (fun j => a2 (ix1 j)))
    (fun h => a0 (ix3 (n0 := 128) (n1 := 197) (J 0) (J 1) h)) (fun j => a4 (ix1 j)) (fun j => a5 (ix1 j)) (fun j => a6 (ix1 j))
    (fun j => a7 (ix1 j)) (fun j => a8 (ix1 j)) (J 2)

/-- The kernel as printed leaves its arguments as launched. -/
theorem frame_kernel : Cert.frame_Kernel := fun m ρ _ => Cert.Kernel.Around.frame m ρ

/-- So does the idealized kernel: its run leaves every buffer that is not one of the grid's arrays at what the last
    line leaves it, and no line writes an argument. -/
theorem frame_kernelIdeal : Cert.frame_KernelIdeal := fun m ρ _ =>
  (θ_run (Cert.KernelIdeal.defs (F := Ideal)) _ _).mono (fun _ h c =>
    ⟨((h c).2 Cert.KernelIdeal.main_arg0 (Pipeline.mem_restRefs_of Cert.KernelIdeal.main_arg0 (by decide) (by decide))).trans (Cert.KernelIdeal.Around.W_main_arg0 m (Cert.KernelIdeal.Around.dats m) c),
     ((h c).2 Cert.KernelIdeal.main_arg1 (Pipeline.mem_restRefs_of Cert.KernelIdeal.main_arg1 (by decide) (by decide))).trans (Cert.KernelIdeal.Around.W_main_arg1 m (Cert.KernelIdeal.Around.dats m) c),
     ((h c).2 Cert.KernelIdeal.main_arg2 (Pipeline.mem_restRefs_of Cert.KernelIdeal.main_arg2 (by decide) (by decide))).trans (Cert.KernelIdeal.Around.W_main_arg2 m (Cert.KernelIdeal.Around.dats m) c),
     ((h c).2 Cert.KernelIdeal.main_arg3 (Pipeline.mem_restRefs_of Cert.KernelIdeal.main_arg3 (by decide) (by decide))).trans (Cert.KernelIdeal.Around.W_main_arg3 m (Cert.KernelIdeal.Around.dats m) c),
     ((h c).2 Cert.KernelIdeal.main_arg4 (Pipeline.mem_restRefs_of Cert.KernelIdeal.main_arg4 (by decide) (by decide))).trans (Cert.KernelIdeal.Around.W_main_arg4 m (Cert.KernelIdeal.Around.dats m) c),
     ((h c).2 Cert.KernelIdeal.main_arg5 (Pipeline.mem_restRefs_of Cert.KernelIdeal.main_arg5 (by decide) (by decide))).trans (Cert.KernelIdeal.Around.W_main_arg5 m (Cert.KernelIdeal.Around.dats m) c),
     ((h c).2 Cert.KernelIdeal.main_arg6 (Pipeline.mem_restRefs_of Cert.KernelIdeal.main_arg6 (by decide) (by decide))).trans (Cert.KernelIdeal.Around.W_main_arg6 m (Cert.KernelIdeal.Around.dats m) c),
     ((h c).2 Cert.KernelIdeal.main_arg7 (Pipeline.mem_restRefs_of Cert.KernelIdeal.main_arg7 (by decide) (by decide))).trans (Cert.KernelIdeal.Around.W_main_arg7 m (Cert.KernelIdeal.Around.dats m) c),
     ((h c).2 Cert.KernelIdeal.main_arg8 (Pipeline.mem_restRefs_of Cert.KernelIdeal.main_arg8 (by decide) (by decide))).trans (Cert.KernelIdeal.Around.W_main_arg8 m (Cert.KernelIdeal.Around.dats m) c)⟩)
    (Cert.KernelIdeal.Around.run_main m ρ)

/-- And the reference, which writes only buffers of its own. -/
theorem frame_reference : Cert.frame_ReferenceIdeal := fun m ρ _ =>
  (θ_run Cert.ReferenceIdeal.defs _ _).mono (fun _ h c => (h c).2) (Cert.ReferenceIdeal.Value.run (F := Ideal) m ρ)

/-- The idealization's one rewrite is the sign-bit rule at the 256 × 768 block. -/
theorem preserves : Cert.preserves_Kernel_KernelIdeal := IdealRules.sign_bit.statement Cert.KernelIdeal.S256x768 .f32

/-- At the ideal values, from memories that agree on the arguments, both programs end with `specOut` of the
    arguments. -/
theorem algebraic : Cert.algebraic_KernelIdeal_ReferenceIdeal := by
  intro m ρ m' ρ' hpre hagree
  refine ⟨fun c => specOut (Cert.KernelIdeal.Around.arg0 m c) (Cert.KernelIdeal.Around.arg1 m c) (Cert.KernelIdeal.Around.arg2 m c) (Cert.KernelIdeal.Around.arg3 m c) (Cert.KernelIdeal.Around.arg4 m c) (Cert.KernelIdeal.Around.arg5 m c) (Cert.KernelIdeal.Around.arg6 m c) (Cert.KernelIdeal.Around.arg7 m c) (Cert.KernelIdeal.Around.arg8 m c), ?_, ?_⟩
  · refine (θ_run (Cert.KernelIdeal.defs (F := Ideal)) _ _).mono (fun _ h c =>
      ⟨?_, ((h c).2 Cert.KernelIdeal.main_arg0 (Pipeline.mem_restRefs_of Cert.KernelIdeal.main_arg0 (by decide) (by decide))).trans (Cert.KernelIdeal.Around.W_main_arg0 m (Cert.KernelIdeal.Around.dats m) c),
       ((h c).2 Cert.KernelIdeal.main_arg1 (Pipeline.mem_restRefs_of Cert.KernelIdeal.main_arg1 (by decide) (by decide))).trans (Cert.KernelIdeal.Around.W_main_arg1 m (Cert.KernelIdeal.Around.dats m) c),
       ((h c).2 Cert.KernelIdeal.main_arg2 (Pipeline.mem_restRefs_of Cert.KernelIdeal.main_arg2 (by decide) (by decide))).trans (Cert.KernelIdeal.Around.W_main_arg2 m (Cert.KernelIdeal.Around.dats m) c),
       ((h c).2 Cert.KernelIdeal.main_arg3 (Pipeline.mem_restRefs_of Cert.KernelIdeal.main_arg3 (by decide) (by decide))).trans (Cert.KernelIdeal.Around.W_main_arg3 m (Cert.KernelIdeal.Around.dats m) c),
       ((h c).2 Cert.KernelIdeal.main_arg4 (Pipeline.mem_restRefs_of Cert.KernelIdeal.main_arg4 (by decide) (by decide))).trans (Cert.KernelIdeal.Around.W_main_arg4 m (Cert.KernelIdeal.Around.dats m) c),
       ((h c).2 Cert.KernelIdeal.main_arg5 (Pipeline.mem_restRefs_of Cert.KernelIdeal.main_arg5 (by decide) (by decide))).trans (Cert.KernelIdeal.Around.W_main_arg5 m (Cert.KernelIdeal.Around.dats m) c),
       ((h c).2 Cert.KernelIdeal.main_arg6 (Pipeline.mem_restRefs_of Cert.KernelIdeal.main_arg6 (by decide) (by decide))).trans (Cert.KernelIdeal.Around.W_main_arg6 m (Cert.KernelIdeal.Around.dats m) c),
       ((h c).2 Cert.KernelIdeal.main_arg7 (Pipeline.mem_restRefs_of Cert.KernelIdeal.main_arg7 (by decide) (by decide))).trans (Cert.KernelIdeal.Around.W_main_arg7 m (Cert.KernelIdeal.Around.dats m) c),
       ((h c).2 Cert.KernelIdeal.main_arg8 (Pipeline.mem_restRefs_of Cert.KernelIdeal.main_arg8 (by decide) (by decide))).trans (Cert.KernelIdeal.Around.W_main_arg8 m (Cert.KernelIdeal.Around.dats m) c)⟩)
      (Cert.KernelIdeal.Around.run_main m ρ)
    refine ((h c).2 Cert.KernelIdeal.main_v20 (Pipeline.mem_restRefs_of Cert.KernelIdeal.main_v20 (by decide) (by decide))).trans ?_
    funext J
    obtain ⟨p, q, i, rfl⟩ : ∃ (p : Fin 128) (q : Fin 197) (i : Fin 3072), J = ix3 p q i := ⟨J 0, J 1, J 2, eq_ix3 J⟩
    exact Cert.KernelIdeal.Around.kernel_result_at m hpre c p q i
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    have e0 : Cert.ReferenceIdeal.RowValue.arg0 m' c = (Cert.KernelIdeal.Around.arg0 m c) := h0
    have e1 : Cert.ReferenceIdeal.RowValue.arg1 m' c = (Cert.KernelIdeal.Around.arg1 m c) := h1
    have e2 : Cert.ReferenceIdeal.RowValue.arg2 m' c = (Cert.KernelIdeal.Around.arg2 m c) := h2
    have e3 : Cert.ReferenceIdeal.RowValue.arg3 m' c = (Cert.KernelIdeal.Around.arg3 m c) := h3
    have e4 : Cert.ReferenceIdeal.RowValue.arg4 m' c = (Cert.KernelIdeal.Around.arg4 m c) := h4
    have e5 : Cert.ReferenceIdeal.RowValue.arg5 m' c = (Cert.KernelIdeal.Around.arg5 m c) := h5
    have e6 : Cert.ReferenceIdeal.RowValue.arg6 m' c = (Cert.KernelIdeal.Around.arg6 m c) := h6
    have e7 : Cert.ReferenceIdeal.RowValue.arg7 m' c = (Cert.KernelIdeal.Around.arg7 m c) := h7
    have e8 : Cert.ReferenceIdeal.RowValue.arg8 m' c = (Cert.KernelIdeal.Around.arg8 m c) := h8
    funext J
    obtain ⟨p, q, i, rfl⟩ : ∃ (p : Fin 128) (q : Fin 197) (i : Fin 3072), J = ix3 p q i := ⟨J 0, J 1, J 2, eq_ix3 J⟩
    refine (Cert.ReferenceIdeal.RowValue.reference_run_at m' c p q i).trans ?_
    rw [e0, e1, e2, e3, e4, e5, e6, e7, e8]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
